-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S8192x64 : Shape := ⟨2, ![8192, 64]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S8192x64 : S_.BroadcastsInDim S8192x64 (![] : Fin 0 → Fin S8192x64.rank)
  reducesTo_S8192x64_S_d0_1 : S8192x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x128 .f32) (main_arg6 : FVec F S64 .f32) (main_arg7 : FVec F S64x64 .f32) (main_arg8 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4096x128 .f32) (main_arg1 : FVec F S8192x128 .f32) (main_arg2 : FVec F S8192x64 .f32) (main_arg3 : FVec F S64x128 .f32) (main_arg4 : FVec F S64 .f32) (main_arg5 : FVec F S64x128 .f32) (main_arg6 : FVec F S64 .f32) (main_arg7 : FVec F S64x64 .f32) (main_arg8 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_v13 main_v16
-- ==== Kernel.lean ====
abbrev S4096x128 : Shape := ⟨2, ![4096, 128]⟩
abbrev S8192x128 : Shape := ⟨2, ![8192, 128]⟩
abbrev S8192x64 : Shape := ⟨2, ![8192, 64]⟩
abbrev S64x128 : Shape := ⟨2, ![64, 128]⟩
abbrev S64 : Shape := ⟨1, ![64]⟩
abbrev S64x64 : Shape := ⟨2, ![64, 64]⟩
abbrev S_ : Shape := ⟨0, ![]⟩
abbrev S128x64 : Shape := ⟨2, ![128, 64]⟩
abbrev S1x64 : Shape := ⟨2, ![1, 64]⟩
abbrev S4096x64 : Shape := ⟨2, ![4096, 64]⟩
abbrev S1024x128 : Shape := ⟨2, ![1024, 128]⟩
abbrev S1024x64 : Shape := ⟨2, ![1024, 64]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 28
  | .vmem => 18
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S64x128, .f32⟩
  | .hbm, ⟨11, _⟩ => ⟨S64x128, .f32⟩
  | .hbm, ⟨12, _⟩ => ⟨S128x64, .f32⟩
  | .hbm, ⟨13, _⟩ => ⟨S128x64, .bf16⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S128x64, .f32⟩
  | .hbm, ⟨19, _⟩ => ⟨S128x64, .bf16⟩
  | .hbm, ⟨20, _⟩ => ⟨S1x64, .f32⟩
  | .hbm, ⟨21, _⟩ => ⟨S64x64, .f32⟩
  | .hbm, ⟨22, _⟩ => ⟨S64x64, .bf16⟩
  | .hbm, ⟨23, _⟩ => ⟨S1x64, .f32⟩
  | .hbm, ⟨24, _⟩ => ⟨S4096x128, .bf16⟩
  | .hbm, ⟨25, _⟩ => ⟨S8192x128, .bf16⟩
  | .hbm, ⟨26, _⟩ => ⟨S8192x64, .bf16⟩
  | .hbm, ⟨27, _⟩ => ⟨S4096x64, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x64, .bf16⟩
  | .local _ .vmem, ⟨5, _⟩ => ⟨S1024x64, .bf16⟩
  | .local _ .vmem, ⟨6, _⟩ => ⟨S128x64, .bf16⟩
  | .local _ .vmem, ⟨7, _⟩ => ⟨S1x64, .f32⟩
  | .local _ .vmem, ⟨8, _⟩ => ⟨S128x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S1024x64, .f32⟩
  | .local _ .vmem, ⟨13, _⟩ => ⟨S1024x64, .f32⟩
  | .local _ .vmem, ⟨14, _⟩ => ⟨S1024x1, .f32⟩
  | .local _ .vmem, ⟨15, _⟩ => ⟨S1024x1, .f32⟩
  | .local _ .vmem, ⟨16, _⟩ => ⟨S1024x64, .f32⟩
  | .local _ .vmem, ⟨17, _⟩ => ⟨S1024x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_33 : BitVec 32 := 0#32
  let v58 : BitVec 1 := Scalar.cmpi .ne v57 c0_i32_33
  v58

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bcast_S_S64x128 : S_.BroadcastsInDim S64x128 (![] : Fin 0 → Fin S64x128.rank)
  transposes_S64x128_S128x64_1_0 : S64x128.Transposes [1, 0] S128x64
  bitsLt_bf16_f32 : FTy.bits .bf16 < FTy.bits .f32
  bcast_S_S64 : S_.BroadcastsInDim S64 (![] : Fin 0 → Fin S64.rank)
  shapeCasts_S64_S1x64 : S64.ShapeCasts S1x64
  transposes_S64x64_S64x64_1_0 : S64x64.Transposes [1, 0] S64x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x128_S128x64_S1024x64_1_0_0_1_n_n_wf : DotDims.WF S1024x128 S128x64 S1024x64 [1] [0] [0] [1] [] []
  dot_S1024x64_S64x64_S1024x64_1_0_0_1_n_n_wf : DotDims.WF S1024x64 S64x64 S1024x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .bf16 = 32 ∨ (Rect.block (s := S4096x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .bf16 = 32 ∨ (Rect.block (s := S8192x64) S1024x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .bf16 = 32 ∨ (Rect.block (s := S128x64) S128x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .bf16 = 32 ∨ (Rect.block (s := S64x64) S64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x64.size a ≤ S4096x64.size a
  hwx0_9 : ∀ i : grid0.Coords, EltTy.bits .f32 = 32 ∨ (Rect.block (s := S4096x64) S1024x64.size (cc0_transform_9 i) (hinb0_9 i)).WholeWords (EltTy.packing .f32)

variable [Facts₀]

def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v13) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v16) S1024x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S8192x64 : Shape := ⟨2, ![8192, 64]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S4096x64 : Shape := ⟨2, ![4096, 64]⟩
abbrev S1x64 : Shape := ⟨2, ![1, 64]⟩
abbrev S64x8192 : Shape := ⟨2, ![64, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S8192x64, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S128x64, .f32⟩
  | .hbm, ⟨10, _⟩ => ⟨S4096x64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S128x64, .f32⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S64x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S64x8192, .f32⟩
  | .hbm, ⟨25, _⟩ => ⟨S4096x8192, .f32⟩
  | .hbm, ⟨26, _⟩ => ⟨S_, .f32⟩
  | .hbm, ⟨27, _⟩ => ⟨S4096x8192, .f32⟩
  | .hbm, ⟨28, _⟩ => ⟨S4096x8192, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x8192, .f32⟩
  | .hbm, ⟨42, _⟩ => ⟨S4096x8192, .f32⟩
  | .hbm, ⟨43, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S1x64_S8192x64_0_1 : S1x64.BroadcastsInDim S8192x64 (![0, 1] : Fin 2 → Fin S8192x64.rank)
  transposes_S64x64_S64x64_1_0 : S64x64.Transposes [1, 0] S64x64
  transposes_S8192x64_S64x8192_1_0 : S8192x64.Transposes [1, 0] S64x8192
  bcast_S_S4096x8192 : S_.BroadcastsInDim S4096x8192 (![] : Fin 0 → Fin S4096x8192.rank)
  reducesTo_S4096x8192_S4096_d1 : S4096x8192.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x8192_0_1 : S4096x1.BroadcastsInDim S4096x8192 (![0, 1] : Fin 2 → Fin S4096x8192.rank)
  dot_S4096x128_S128x64_S4096x64_1_0_0_1_n_n_wf : DotDims.WF S4096x128 S128x64 S4096x64 [1] [0] [0] [1] [] []
  dot_S8192x128_S128x64_S8192x64_1_0_0_1_n_n_wf : DotDims.WF S8192x128 S128x64 S8192x64 [1] [0] [0] [1] [] []
  dot_S8192x64_S64x64_S8192x64_1_0_0_1_n_n_wf : DotDims.WF S8192x64 S64x64 S8192x64 [1] [0] [0] [1] [] []
  dot_S4096x64_S64x8192_S4096x8192_1_0_0_1_n_n_wf : DotDims.WF S4096x64 S64x8192 S4096x8192 [1] [0] [0] [1] [] []
  dot_S4096x8192_S8192x64_S4096x64_1_0_0_1_n_n_wf : DotDims.WF S4096x8192 S8192x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S4096x64_S64x8192_S4096x8192_1_0_0_1_n_n : DotDims S4096x64 S64x8192 S4096x8192 where
  lhsContracting := [1]
  rhsContracting := [0]
  lhsNonContracting := [0]
  rhsNonContracting := [1]
  lhsBatch := []
  rhsBatch := []
  wf := dot_S4096x64_S64x8192_S4096x8192_1_0_0_1_n_n_wf
def dot_S4096x8192_S8192x64_S4096x64_1_0_0_1_n_n : DotDims S4096x8192 S8192x64 S4096x64 where
  lhsContracting := [1]
  rhsContracting := [0]
  lhsNonContracting := [0]
  rhsNonContracting := [1]
  lhsBatch := []
  rhsBatch := []
  wf := dot_S4096x8192_S8192x64_S4096x64_1_0_0_1_n_n_wf

class Facts : Prop extends Facts₀ where

variable [Facts]
-- ==== Proof.Spec.lean ====
/- Softmax attention with linear projections, as a function of real arrays.

   A query row `i` and a key row `j` are projected (`x W^T + b`), the score of the pair is the inner product of the
   projections divided by 8 (the square root of the projection width 64), and the output row is the average of the
   projected value rows weighted by the softmax of the scores of row `i`.  The softmax is written the stable way:
   every score is shifted by the row's maximum before it is exponentiated. -/
import Mathlib.Analysis.SpecialFunctions.Exp
import Mathlib.Algebra.BigOperators.Fin
import Mathlib.Order.Fin.Basic
import Mathlib.Data.Finset.Lattice.Fold

namespace Attn

/-- The nine argument arrays, with real entries. -/
structure Inputs where
  q : Fin 4096 → Fin 128 → ℝ
  k : Fin 8192 → Fin 128 → ℝ
  v : Fin 8192 → Fin 64 → ℝ
  Wq : Fin 64 → Fin 128 → ℝ
  bq : Fin 64 → ℝ
  Wk : Fin 64 → Fin 128 → ℝ
  bk : Fin 64 → ℝ
  Wv : Fin 64 → Fin 64 → ℝ
  bv : Fin 64 → ℝ

namespace Inputs

variable (x : Inputs)

/-- The projected query row. -/
noncomputable def Qp (i : Fin 4096) (a : Fin 64) : ℝ := (∑ c, x.q i c * x.Wq a c) + x.bq a
/-- The projected key row. -/
noncomputable def Kp (j : Fin 8192) (a : Fin 64) : ℝ := (∑ c, x.k j c * x.Wk a c) + x.bk a
/-- The projected value row. -/
noncomputable def Vp (j : Fin 8192) (d : Fin 64) : ℝ := (∑ c, x.v j c * x.Wv d c) + x.bv d
/-- The scaled score of query `i` against key `j`. -/
noncomputable def score (i : Fin 4096) (j : Fin 8192) : ℝ := (∑ a, x.Qp i a * x.Kp j a) / 8

theorem keys_nonempty : (Finset.univ : Finset (Fin 8192)).Nonempty := ⟨⟨0, by norm_num⟩, Finset.mem_univ _⟩

/-- The largest score of row `i`. -/
noncomputable def rowMax (i : Fin 4096) : ℝ := Finset.univ.sup' keys_nonempty (x.score i)
/-- The shifted exponential of a score. -/
noncomputable def weight (i : Fin 4096) (j : Fin 8192) : ℝ := Real.exp (x.score i j - x.rowMax i)
/-- The softmax denominator of row `i`. -/
noncomputable def denom (i : Fin 4096) : ℝ := ∑ j, x.weight i j
/-- The attention output. -/
noncomputable def out (i : Fin 4096) (d : Fin 64) : ℝ := ∑ j, x.weight i j / x.denom i * x.Vp j d

theorem score_le_rowMax (i : Fin 4096) (j : Fin 8192) : x.score i j ≤ x.rowMax i :=
  Finset.le_sup' (x.score i) (Finset.mem_univ j)

theorem rowMax_attained (i : Fin 4096) : ∃ j, x.score i j = x.rowMax i := by
  obtain ⟨j, _, hj⟩ := Finset.exists_mem_eq_sup' keys_nonempty (x.score i)
  exact ⟨j, hj.symm⟩

/-- The row maximum is the only upper bound of the row's scores that one of them attains. -/
theorem rowMax_unique (i : Fin 4096) (M : ℝ) (hle : ∀ j, x.score i j ≤ M) (hat : ∃ j, x.score i j = M) :
    M = x.rowMax i := by
  obtain ⟨j, hj⟩ := hat
  obtain ⟨j', hj'⟩ := x.rowMax_attained i
  exact le_antisymm (hj ▸ x.score_le_rowMax i j) (hj' ▸ hle j')

theorem denom_pos (i : Fin 4096) : 0 < x.denom i :=
  Finset.sum_pos (fun j _ => Real.exp_pos _) keys_nonempty

/-- Key row `1024 * b + c`: row `c` of the `b`-th block of 1024 keys. -/
def key (b : Fin 8) (c : Fin 1024) : Fin 8192 := ⟨1024 * b.val + c.val, by have := b.isLt; have := c.isLt; omega⟩
/-- Query row `1024 * b + r`: row `r` of the `b`-th block of 1024 queries. -/
def qrow (b : Fin 4) (r : Fin 1024) : Fin 4096 := ⟨1024 * b.val + r.val, by have := b.isLt; have := r.isLt; omega⟩

/-- A sum over all keys, block by block. -/
theorem sum_keys {β : Type*} [AddCommMonoid β] (f : Fin 8192 → β) : ∑ j, f j = ∑ b : Fin 8, ∑ c : Fin 1024, f (key b c) := by
  rw [← Finset.sum_product' (f := fun b c => f (key b c))]
  refine (Fintype.sum_equiv (finProdFinEquiv (m := 8) (n := 1024)) _ _ (fun p => ?_)).symm
  congr 1
  apply Fin.ext
  simp [key, finProdFinEquiv, Nat.mul_comm] <;> omega

/-- Every key row lies in exactly one block. -/
theorem key_surj (j : Fin 8192) : ∃ b c, key b c = j :=
  ⟨⟨j.val / 1024, by have := j.isLt; omega⟩, ⟨j.val % 1024, Nat.mod_lt _ (by norm_num)⟩, Fin.ext (Nat.div_add_mod j.val 1024)⟩

end Inputs

end Attn
-- ==== Proof.LibFinite.lean ====
/-
  Finite extended reals. `IsReal x` says the extended real `x` is a real number (neither
  infinity). The exact float operations of the ideal values — sum, difference, product,
  maximum, minimum, negation, quotient by a nonzero finite divisor, reciprocal square root
  of a positive finite value — keep finite operands finite; a finite sum of finite terms
  is finite, and the coercion `ℝ → EReal` commutes with finite sums.

  Everything here is stated once on `EReal` and once over the `FloatOps` fields at
  `Ideal` (`FloatOps.addf` …), and entrywise over vectors (`AllReal v`).
-/
import Idealize.ShloMosaic.PureOps.Ideal.Laws

open scoped BigOperators
open Idealize.ShloMosaic

namespace LibFinite

/-- The extended real `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r

/-- Finite means: neither infinity. -/
theorem isReal_iff {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

/-- The real number a finite extended real is. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The quotient of the ideal values by a nonzero real is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h, EReal.coe_zero])
  exact ⟨a / b, div_coe_coe a hb⟩

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsReal.rsqrt {x : EReal} (hx : IsReal x) (hpos : 0 < x) : IsReal (Ideal.rsqrt x) := by
  obtain ⟨a, rfl⟩ := hx
  exact ⟨_, rsqrt_coe_pos (EReal.coe_pos.mp hpos)⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- A finite sum of finite nonnegative terms is nonnegative (and finite). -/
theorem sum_nonneg_of_isReal {ι : Type*} (s : Finset ι) (f : ι → EReal) (h0 : ∀ i ∈ s, 0 ≤ f i) :
    0 ≤ ∑ i ∈ s, f i := Finset.sum_nonneg h0

/-! ### The same over the float operations of the ideal values -/

variable {φ : FTy}

theorem isReal_addf {x y : Ideal φ} (hx : IsReal x) (hy : IsReal y) : IsReal (FloatOps.addf x y) := hx.add hy
theorem isReal_subf {x y : Ideal φ} (hx : IsReal x) (hy : IsReal y) : IsReal (FloatOps.subf x y) := hx.sub hy
theorem isReal_mulf {x y : Ideal φ} (hx : IsReal x) (hy : IsReal y) : IsReal (FloatOps.mulf x y) := hx.mul hy
theorem isReal_negf {x : Ideal φ} (hx : IsReal x) : IsReal (FloatOps.negf x) := hx.neg
theorem isReal_maximumf {x y : Ideal φ} (hx : IsReal x) (hy : IsReal y) : IsReal (FloatOps.maximumf x y) := hx.max hy
theorem isReal_minimumf {x y : Ideal φ} (hx : IsReal x) (hy : IsReal y) : IsReal (FloatOps.minimumf x y) := hx.min hy
theorem isReal_divf {x y : Ideal φ} (hx : IsReal x) (hy : IsReal y) (h0 : y ≠ 0) : IsReal (FloatOps.divf x y) :=
  hx.div hy h0
theorem isReal_hostDivf {x y : Ideal φ} (hx : IsReal x) (hy : IsReal y) (h0 : y ≠ 0) :
    IsReal (FloatOps.hostDivf x y) := hx.div hy h0
theorem isReal_rsqrt {x : Ideal φ} (hx : IsReal x) (hpos : 0 < x) : IsReal (FloatOps.rsqrt x) := hx.rsqrt hpos
theorem isReal_hostRsqrt {x : Ideal φ} (hx : IsReal x) (hpos : 0 < x) : IsReal (FloatOps.hostUnary .rsqrt x) :=
  hx.rsqrt hpos

/-! ### Entrywise over vectors -/

/-- Every entry of the vector is a real number. -/
def AllReal {s : Shape} (v : s.Idx → EReal) : Prop := ∀ i, IsReal (v i)

variable {s : Shape}

theorem allReal_addf {x y : FVec Ideal s φ} (hx : AllReal x) (hy : AllReal y) : AllReal (addf x y) :=
  fun i => (hx i).add (hy i)
theorem allReal_subf {x y : FVec Ideal s φ} (hx : AllReal x) (hy : AllReal y) : AllReal (subf x y) :=
  fun i => (hx i).sub (hy i)
theorem allReal_mulf {x y : FVec Ideal s φ} (hx : AllReal x) (hy : AllReal y) : AllReal (mulf x y) :=
  fun i => (hx i).mul (hy i)
theorem allReal_maximumf {x y : FVec Ideal s φ} (hx : AllReal x) (hy : AllReal y) : AllReal (maximumf x y) :=
  fun i => (hx i).max (hy i)
theorem allReal_divf {x y : FVec Ideal s φ} (hx : AllReal x) (hy : AllReal y) (h0 : ∀ i, y i ≠ 0) :
    AllReal (divf x y) := fun i => (hx i).div (hy i) (h0 i)
theorem allReal_hostDivf {x y : FVec Ideal s φ} (hx : AllReal x) (hy : AllReal y) (h0 : ∀ i, y i ≠ 0) :
    AllReal (Host.divf x y) := fun i => (hx i).div (hy i) (h0 i)
theorem allReal_rsqrt {x : FVec Ideal s φ} (hx : AllReal x) (hpos : ∀ i, 0 < x i) : AllReal (rsqrt x) :=
  fun i => (hx i).rsqrt (hpos i)
theorem allReal_hostRsqrt {x : FVec Ideal s φ} (hx : AllReal x) (hpos : ∀ i, 0 < x i) : AllReal (Host.rsqrt x) :=
  fun i => (hx i).rsqrt (hpos i)
theorem allReal_broadcast {x : EReal} (hx : IsReal x) (t : Shape) : AllReal (broadcast t x) := fun _ => hx

end LibFinite
-- ==== Proof.Finite.lean ====
/-
  From the precondition to real arrays. The precondition says, of each of the nine argument arrays, that the
  conjunction over all its entries of "the absolute value of the entry is strictly below plus infinity" holds. An
  extended real whose absolute value (the larger of itself and its negation) is strictly below plus infinity is
  neither infinity, so it is a real number; an array all of whose entries are real numbers is the entrywise
  coercion of the array of those real numbers. The nine real arrays so obtained are the fields of the
  specification's input record.
-/
import proofs.«153045_j22763326669315_2_alg».proof.Defs
import proofs.«153045_j22763326669315_2_alg».proof.Proof.Spec
import proofs.«153045_j22763326669315_2_alg».proof.Proof.LibFinite
import Idealize.ShloMosaic.Lib.ReduceAll
import Idealize.ShloMosaic.Lib.ValueIdx

noncomputable section

namespace Cert.Finite

open Idealize.ShloMosaic Idealize.ShloMosaic.ValueIdx

/-- The f32 pattern with all exponent bits set and no fraction bit denotes plus infinity. -/
theorem inf_pattern : Ideal.ofBits .f32 0x7F800000#32 = (⊤ : EReal) := by
  simp [Ideal.ofBits, Ideal.ieee]

/-- An extended real whose absolute value lies strictly below plus infinity is a real number. -/
theorem isReal_of_abs_lt (x : EReal) (h : Ideal.cmp .olt (max x (-x)) (⊤ : EReal) = 1#1) : LibFinite.IsReal x := by
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The conjunction, over all entries of an array, of "the absolute value is below plus infinity" holds:
    then every entry is a real number. -/
theorem allReal_of_all {s : Shape} {axes : List (Fin s.rank)} (x : FVec Ideal s .f32)
    (bc : Cert.Pre_finite_inputs.S_.BroadcastsInDim s (![] : Fin 0 → Fin s.rank))
    (hred : s.ReducesTo axes Cert.Pre_finite_inputs.S_) (hu : 0 < Cert.Pre_finite_inputs.S_.numel)
    (init : IVec Cert.Pre_finite_inputs.S_ 1)
    (h : Host.reduce IntOp.andi
        (cmpf .olt (Host.absf x) (broadcastInDim s ![] bc (constant Cert.Pre_finite_inputs.S_ .f32 0x7F800000#32)))
        init hred hu ix0 = 1#1) :
    LibFinite.AllReal x := by
  intro i
  have e := Host.reduce_andi_all _ init hred hu ix0 h i
  apply isReal_of_abs_lt
  rw [← inf_pattern]
  exact e

/-- An array of rank two whose entries are all real numbers is the coercion of a real array. -/
theorem exists_real2 {n0 n1 : Nat} (v : (⟨2, ![n0, n1]⟩ : Shape).Idx → EReal) (h : LibFinite.AllReal v) :
    ∃ f : Fin n0 → Fin n1 → ℝ, v = fun i => ((f (i 0) (i 1) : ℝ) : EReal) := by
  refine ⟨fun p q => (v (ix2 p q)).toReal, funext fun i => ?_⟩
  show v i = (((v (ix2 (i 0) (i 1))).toReal : ℝ) : EReal)
  rw [(h (ix2 (i 0) (i 1))).coe_toReal]
  exact congrArg v (eq_ix2 i)

/-- An array of rank one whose entries are all real numbers is the coercion of a real array. -/
theorem exists_real1 {n : Nat} (v : (⟨1, ![n]⟩ : Shape).Idx → EReal) (h : LibFinite.AllReal v) :
    ∃ f : Fin n → ℝ, v = fun i => ((f (i 0) : ℝ) : EReal) := by
  refine ⟨fun p => (v (ix1 p)).toReal, funext fun i => ?_⟩
  show v i = (((v (ix1 (i 0))).toReal : ℝ) : EReal)
  rw [(h (ix1 (i 0))).coe_toReal]
  exact congrArg v (eq_ix1 i)

variable [Cert.Pre_finite_inputs.Facts]

/-- Under the precondition (every entry of every argument array has absolute value below plus infinity), the nine
    argument arrays are the coercions of nine real arrays. -/
theorem inputs_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ x : Attn.Inputs,
      m ((c.tc : Thread Cert.KernelIdeal.nD Cert.KernelIdeal.τ).loc Cert.KernelIdeal.main_arg0) = (fun i => ((x.q (i 0) (i 1) : ℝ) : EReal))
      ∧ m ((c.tc : Thread Cert.KernelIdeal.nD Cert.KernelIdeal.τ).loc Cert.KernelIdeal.main_arg1) = (fun i => ((x.k (i 0) (i 1) : ℝ) : EReal))
      ∧ m ((c.tc : Thread Cert.KernelIdeal.nD Cert.KernelIdeal.τ).loc Cert.KernelIdeal.main_arg2) = (fun i => ((x.v (i 0) (i 1) : ℝ) : EReal))
      ∧ m ((c.tc : Thread Cert.KernelIdeal.nD Cert.KernelIdeal.τ).loc Cert.KernelIdeal.main_arg3) = (fun i => ((x.Wq (i 0) (i 1) : ℝ) : EReal))
      ∧ m ((c.tc : Thread Cert.KernelIdeal.nD Cert.KernelIdeal.τ).loc Cert.KernelIdeal.main_arg4) = (fun i => ((x.bq (i 0) : ℝ) : EReal))
      ∧ m ((c.tc : Thread Cert.KernelIdeal.nD Cert.KernelIdeal.τ).loc Cert.KernelIdeal.main_arg5) = (fun i => ((x.Wk (i 0) (i 1) : ℝ) : EReal))
      ∧ m ((c.tc : Thread Cert.KernelIdeal.nD Cert.KernelIdeal.τ).loc Cert.KernelIdeal.main_arg6) = (fun i => ((x.bk (i 0) : ℝ) : EReal))
      ∧ m ((c.tc : Thread Cert.KernelIdeal.nD Cert.KernelIdeal.τ).loc Cert.KernelIdeal.main_arg7) = (fun i => ((x.Wv (i 0) (i 1) : ℝ) : EReal))
      ∧ m ((c.tc : Thread Cert.KernelIdeal.nD Cert.KernelIdeal.τ).loc Cert.KernelIdeal.main_arg8) = (fun i => ((x.bv (i 0) : ℝ) : EReal)) := by
  have e := congrFun (hpre c) ix0
  dsimp only [Cert.Pre_finite_inputs.fn, Cert.Pre_finite_inputs.fn_part1, Cert.Pre_finite_inputs.fn_part2, andi] at e
  simp only [IntOp.andi_eq_one] at e
  obtain ⟨⟨⟨⟨⟨⟨⟨⟨h0, h1⟩, h2⟩, h3⟩, h4⟩, h5⟩, h6⟩, h7⟩, h8⟩ := e
  obtain ⟨f0, e0⟩ := exists_real2 _ (allReal_of_all _ _ _ _ _ h0)
  obtain ⟨f1, e1⟩ := exists_real2 _ (allReal_of_all _ _ _ _ _ h1)
  obtain ⟨f2, e2⟩ := exists_real2 _ (allReal_of_all _ _ _ _ _ h2)
  obtain ⟨f3, e3⟩ := exists_real2 _ (allReal_of_all _ _ _ _ _ h3)
  obtain ⟨f4, e4⟩ := exists_real1 _ (allReal_of_all _ _ _ _ _ h4)
  obtain ⟨f5, e5⟩ := exists_real2 _ (allReal_of_all _ _ _ _ _ h5)
  obtain ⟨f6, e6⟩ := exists_real1 _ (allReal_of_all _ _ _ _ _ h6)
  obtain ⟨f7, e7⟩ := exists_real2 _ (allReal_of_all _ _ _ _ _ h7)
  obtain ⟨f8, e8⟩ := exists_real1 _ (allReal_of_all _ _ _ _ _ h8)
  exact ⟨⟨f0, f1, f2, f3, f4, f5, f6, f7, f8⟩, e0, e1, e2, e3, e4, e5, e6, e7, e8⟩

end Cert.Finite

end
-- ==== Proof.Pieces.lean ====
/- What each control case of the attention body leaves in the four carried scratches and in the output block, as
   pure functions of the blocks it loads and of what the scratches held before.

   The body keeps, per query row of the block, a running maximum `m` of the scores seen so far, a running sum `l` of
   the exponentials of the scores shifted by `m`, a running sum `acc` of those exponentials times the projected value
   rows, and the projected query block.  Every store covers its whole buffer and every load reads a whole buffer, so
   what a case leaves is the payload of its last store of that buffer, with each load replaced by the block or by the
   earlier store it reads.  At the first key block the scratches are first reset (`m` to minus infinity, `l` and `acc`
   to zero, the query projected) and then updated like at any other block; at the last key block the output block is
   `acc / l` of the updated scratches. -/
import proofs.«153045_j22763326669315_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- One step of the running maximum: the larger of the old maximum and the row maximum of the block's scores. -/
def stepM (kb : Vec F S1024x128 .bf16) (wk : Vec F S128x64 .bf16) (bk : Vec F S1x64 .f32) (qp : Vec F S1024x64 .f32)
    (mo : Vec F S1024x1 .f32) : Vec F S1024x1 .f32 := k0_pay4 (k0_pay12 kb wk bk qp mo)

/-- One step of the running denominator: the old one rescaled to the new maximum, plus the block's shifted exponentials. -/
def stepL (kb : Vec F S1024x128 .bf16) (wk : Vec F S128x64 .bf16) (bk : Vec F S1x64 .f32) (qp : Vec F S1024x64 .f32)
    (mo lo : Vec F S1024x1 .f32) : Vec F S1024x1 .f32 :=
  k0_pay2 (k0_pay11 kb wk bk qp) (k0_pay13 kb wk bk qp mo mo) (k0_pay14 kb wk bk qp mo) lo

/-- One step of the running accumulator: the old one rescaled, plus the block's weighted projected values. -/
def stepA (kb : Vec F S1024x128 .bf16) (vb : Vec F S1024x64 .bf16) (wk : Vec F S128x64 .bf16) (bk : Vec F S1x64 .f32)
    (wv : Vec F S64x64 .bf16) (bv : Vec F S1x64 .f32) (qp : Vec F S1024x64 .f32) (mo : Vec F S1024x1 .f32)
    (ao : Vec F S1024x64 .f32) : Vec F S1024x64 .f32 :=
  k0_pay3 (k0_pay10 vb wv bv) (k0_pay11 kb wk bk qp) (k0_pay13 kb wk bk qp mo mo) (k0_pay14 kb wk bk qp mo) ao

/-- The output block: the accumulator divided by the denominator, row by row. -/
def outOf (a : Vec F S1024x64 .f32) (l : Vec F S1024x1 .f32) : Vec F S1024x64 .f32 := k0_pay5 a l

/-- The reset values of the first key block: minus infinity, zero, zero. -/
abbrev m0 : Vec F S1024x1 .f32 := k0_pay6
abbrev l0 : Vec F S1024x1 .f32 := k0_pay7
abbrev a0 : Vec F S1024x64 .f32 := k0_pay8
/-- The projected query block. -/
def qProj (qb : Vec F S1024x128 .bf16) (wq : Vec F S128x64 .bf16) (bq : Vec F S1x64 .f32) : Vec F S1024x64 .f32 := k0_pay9 qb wq bq

/-! ## A middle key block -/

/-- The running maximum after a middle key block. -/
theorem m_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepM x1 x5 x6 xs3 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_B
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running denominator after a middle key block. -/
theorem l_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepL x1 x5 x6 xs3 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_B
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running accumulator after a middle key block. -/
theorem acc_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepA x1 x2 x5 x6 x7 x8 xs3 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_B
  dsimp only
  sl_unfold_words
  first | rw [View.canon_unit_zero hz] | rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-! ## The last key block -/

/-- The running maximum after the last key block. -/
theorem m_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepM x1 x5 x6 xs3 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_C
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running denominator after the last key block. -/
theorem l_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepL x1 x5 x6 xs3 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_C
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running accumulator after the last key block. -/
theorem acc_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = stepA x1 x2 x5 x6 x7 x8 xs3 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_C
  dsimp only
  sl_unfold_words
  first | rw [View.canon_unit_zero hz] | rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The output block the last key block stores: the updated accumulator over the updated denominator. -/
theorem out_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : ¬cond0_0 i) (hc1 : cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) (xs0 : Vec F S1024x1 .f32) (xs1 : Vec F S1024x1 .f32) (xs2 : Vec F S1024x64 .f32) (xs3 : Vec F S1024x64 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3 = outOf (stepA x1 x2 x5 x6 x7 x8 xs3 xs0 xs2) (stepL x1 x5 x6 xs3 xs0 xs1) := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 xs2 xs3)]
  unfold kernelRun0_C
  dsimp only
  sl_unfold_words
  first | rw [View.canon_unit_zero hz] | rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-! ## The first key block -/

/-- The running maximum after the first key block: one step from minus infinity. -/
theorem m_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = stepM x1 x5 x6 (qProj x0 x3 x4) m0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running denominator after the first key block: one step from zero. -/
theorem l_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = stepL x1 x5 x6 (qProj x0 x3 x4) m0 l0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  first | rw [View.canon_unit_zero hz] | rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The running accumulator after the first key block: one step from zero. -/
theorem acc_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = stepA x1 x2 x5 x6 x7 x8 (qProj x0 x3 x4) m0 a0 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  first | rw [View.canon_unit_zero hz] | rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

/-- The projected query block, stored at the first key block. -/
theorem q_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x64 .bf16) (harg4 : arg4.IsWhole) (arg5 : Memref sig .tc .vmem S128x64 .bf16) (harg5 : arg5.IsWhole) (arg6 : Memref sig .tc .vmem S1x64 .f32) (harg6 : arg6.IsWhole) (arg7 : Memref sig .tc .vmem S128x64 .bf16) (harg7 : arg7.IsWhole) (arg8 : Memref sig .tc .vmem S1x64 .f32) (harg8 : arg8.IsWhole) (arg9 : Memref sig .tc .vmem S64x64 .bf16) (harg9 : arg9.IsWhole) (arg10 : Memref sig .tc .vmem S1x64 .f32) (harg10 : arg10.IsWhole) (arg11 : Memref sig .tc .vmem S1024x64 .f32) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x64 .f32) (harg14 : arg14.IsWhole) (arg15 : Memref sig .tc .vmem S1024x64 .f32) (harg15 : arg15.IsWhole) (hc0 : cond0_0 i) (hc1 : ¬cond0_1 i)
    (x0 : Vec F S1024x128 .bf16) (x1 : Vec F S1024x128 .bf16) (x2 : Vec F S1024x64 .bf16) (x3 : Vec F S128x64 .bf16) (x4 : Vec F S1x64 .f32) (x5 : Vec F S128x64 .bf16) (x6 : Vec F S1x64 .f32) (x7 : Vec F S64x64 .bf16) (x8 : Vec F S1x64 .f32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = qProj x0 x3 x4 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8)]
  unfold kernelRun0_A
  dsimp only
  sl_unfold_words
  first | rw [View.canon_unit_zero hz] | rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg6.read_unread, harg7.read_unread, harg8.read_unread, harg9.read_unread, harg10.read_unread, harg12.read_unread, harg13.read_unread, harg14.read_unread, harg15.read_unread, View.ld_unit_zero (S := S1024x128) hz, View.ld_unit_zero (S := S128x64) hz, View.ld_unit_zero (S := S1x64) hz, View.ld_unit_zero (S := S1024x1) hz, View.ld_unit_zero (S := S1024x64) hz, View.ld_unit_zero (S := S64x64) hz]
  rfl

end Cert.KernelIdeal.Pieces

end
-- ==== Proof.Algebra.lean ====
/- The algebra of a running softmax, over the reals.

   A row of scores is cut into consecutive blocks.  Going through the blocks one at a time one keeps a running
   maximum, a running sum of exponentials shifted by that maximum, and a running weighted sum of values; when the
   maximum grows from a to b the old sums are rescaled by exp (a - b).  After the last block the running maximum
   is the maximum of the whole row and the two sums are the softmax numerator and denominator shifted by it, so
   their quotient is the softmax-weighted average.  The last part relates a maximum folded over the extended reals,
   started at minus infinity, to the real maximum. -/
import proofs.«153045_j22763326669315_2_alg».proof.Proof.Spec
import proofs.«153045_j22763326669315_2_alg».proof.Proof.LibFinite

open scoped BigOperators

namespace Attn.Online

/-- Moving the reference point of an exponential. -/
theorem exp_shift (a b t : ℝ) : Real.exp (a - b) * Real.exp (t - a) = Real.exp (t - b) := by
  rw [← Real.exp_add]; congr 1; ring

section Generic

variable {ι : Type*} [Fintype ι] [Nonempty ι]

/-- The largest entry of one block. -/
noncomputable def blockMax (f : ι → ℝ) : ℝ := Finset.univ.sup' Finset.univ_nonempty f

/-- The running maximum after block n. -/
noncomputable def runM (s : ℕ → ι → ℝ) : ℕ → ℝ
  | 0 => blockMax (s 0)
  | n + 1 => max (runM s n) (blockMax (s (n + 1)))

/-- The running sum of shifted exponentials after block n. -/
noncomputable def runL (s : ℕ → ι → ℝ) : ℕ → ℝ
  | 0 => ∑ c, Real.exp (s 0 c - runM s 0)
  | n + 1 => Real.exp (runM s n - runM s (n + 1)) * runL s n + ∑ c, Real.exp (s (n + 1) c - runM s (n + 1))

/-- The running weighted sum of values after block n. -/
noncomputable def runA (s v : ℕ → ι → ℝ) : ℕ → ℝ
  | 0 => ∑ c, Real.exp (s 0 c - runM s 0) * v 0 c
  | n + 1 => Real.exp (runM s n - runM s (n + 1)) * runA s v n
      + ∑ c, Real.exp (s (n + 1) c - runM s (n + 1)) * v (n + 1) c

variable (s v : ℕ → ι → ℝ)

theorem runM_zero : runM s 0 = blockMax (s 0) := rfl
theorem runM_succ (n : ℕ) : runM s (n + 1) = max (runM s n) (blockMax (s (n + 1))) := rfl
theorem runL_zero : runL s 0 = ∑ c, Real.exp (s 0 c - runM s 0) := rfl
theorem runL_succ (n : ℕ) : runL s (n + 1)
    = Real.exp (runM s n - runM s (n + 1)) * runL s n + ∑ c, Real.exp (s (n + 1) c - runM s (n + 1)) := rfl
theorem runA_zero : runA s v 0 = ∑ c, Real.exp (s 0 c - runM s 0) * v 0 c := rfl
theorem runA_succ (n : ℕ) : runA s v (n + 1)
    = Real.exp (runM s n - runM s (n + 1)) * runA s v n
      + ∑ c, Real.exp (s (n + 1) c - runM s (n + 1)) * v (n + 1) c := rfl

theorem le_blockMax (f : ι → ℝ) (c : ι) : f c ≤ blockMax f := Finset.le_sup' f (Finset.mem_univ c)

theorem blockMax_attained (f : ι → ℝ) : ∃ c, f c = blockMax f := by
  obtain ⟨c, _, hc⟩ := Finset.exists_mem_eq_sup' (Finset.univ_nonempty (α := ι)) f
  exact ⟨c, hc.symm⟩

/-- The running maximum bounds every score seen so far. -/
theorem runM_le (n : ℕ) : ∀ b, b ≤ n → ∀ c, s b c ≤ runM s n := by
  induction n with
  | zero =>
    intro b hb c
    obtain rfl : b = 0 := Nat.le_zero.mp hb
    exact le_blockMax (s 0) c
  | succ n ih =>
    intro b hb c
    rw [runM_succ]
    rcases Nat.lt_or_ge b (n + 1) with h | h
    · exact le_trans (ih b (Nat.lt_succ_iff.mp h) c) (le_max_left _ _)
    · obtain rfl : b = n + 1 := le_antisymm hb h
      exact le_trans (le_blockMax (s (n + 1)) c) (le_max_right _ _)

/-- The running maximum is one of the scores seen so far. -/
theorem runM_attained (n : ℕ) : ∃ b, b ≤ n ∧ ∃ c, s b c = runM s n := by
  induction n with
  | zero =>
    obtain ⟨c, hc⟩ := blockMax_attained (s 0)
    exact ⟨0, le_rfl, c, hc⟩
  | succ n ih =>
    rw [runM_succ]
    rcases max_choice (runM s n) (blockMax (s (n + 1))) with h | h
    · obtain ⟨b, hb, c, hc⟩ := ih
      exact ⟨b, Nat.le_succ_of_le hb, c, by rw [h]; exact hc⟩
    · obtain ⟨c, hc⟩ := blockMax_attained (s (n + 1))
      exact ⟨n + 1, le_rfl, c, by rw [h]; exact hc⟩

/-- The running sum is the sum over all blocks seen so far, shifted by the current running maximum. -/
theorem runL_eq (n : ℕ) : runL s n = ∑ b ∈ Finset.range (n + 1), ∑ c, Real.exp (s b c - runM s n) := by
  induction n with
  | zero => rw [runL_zero, Finset.sum_range_one]
  | succ n ih =>
    rw [runL_succ, ih, Finset.sum_range_succ _ (n + 1), Finset.mul_sum]
    congr 1
    refine Finset.sum_congr rfl (fun b _ => ?_)
    rw [Finset.mul_sum]
    exact Finset.sum_congr rfl (fun c _ => exp_shift _ _ _)

/-- The running weighted sum is the weighted sum over all blocks seen so far, shifted by the current running maximum. -/
theorem runA_eq (n : ℕ) :
    runA s v n = ∑ b ∈ Finset.range (n + 1), ∑ c, Real.exp (s b c - runM s n) * v b c := by
  induction n with
  | zero => rw [runA_zero, Finset.sum_range_one]
  | succ n ih =>
    rw [runA_succ, ih, Finset.sum_range_succ _ (n + 1), Finset.mul_sum]
    congr 1
    refine Finset.sum_congr rfl (fun b _ => ?_)
    rw [Finset.mul_sum]
    refine Finset.sum_congr rfl (fun c _ => ?_)
    rw [← mul_assoc, exp_shift]

theorem runL_pos (n : ℕ) : 0 < runL s n := by
  rw [runL_eq]
  refine Finset.sum_pos (fun b _ => ?_) ⟨0, Finset.mem_range.mpr (Nat.succ_pos n)⟩
  exact Finset.sum_pos (fun c _ => Real.exp_pos _) Finset.univ_nonempty

end Generic

section ExtendedReal

/-- The maximum of two reals, read in the extended reals. -/
theorem max_coe (a b : ℝ) : max (a : EReal) (b : EReal) = ((max a b : ℝ) : EReal) :=
  (EReal.coe_strictMono.monotone.map_max (a := a) (b := b)).symm

/-- A maximum of reals folded in the extended reals from minus infinity is the real maximum. -/
theorem fold_max_coe {ι : Type*} (t : Finset ι) (ht : t.Nonempty) (f : ι → ℝ) :
    t.fold max (⊥ : EReal) (fun c => ((f c : ℝ) : EReal)) = ((t.sup' ht f : ℝ) : EReal) := by
  induction ht using Finset.Nonempty.cons_induction with
  | singleton a =>
    rw [Finset.fold_singleton, Finset.sup'_singleton]
    exact max_bot_right _
  | cons a t ha ht ih =>
    rw [Finset.fold_cons, Finset.sup'_cons ht, ih, max_coe]

end ExtendedReal

section Specialisation

/-- The scores of query row i, block by block (zero beyond the eighth block). -/
noncomputable def sBlk (x : Attn.Inputs) (i : Fin 4096) : ℕ → Fin 1024 → ℝ :=
  fun b c => if h : b < 8 then x.score i (Attn.Inputs.key ⟨b, h⟩ c) else 0

/-- Column d of the projected values, block by block (zero beyond the eighth block). -/
noncomputable def vBlk (x : Attn.Inputs) (d : Fin 64) : ℕ → Fin 1024 → ℝ :=
  fun b c => if h : b < 8 then x.Vp (Attn.Inputs.key ⟨b, h⟩ c) d else 0

variable (x : Attn.Inputs) (i : Fin 4096) (d : Fin 64)

theorem sBlk_of_lt {b : ℕ} (h : b < 8) (c : Fin 1024) :
    sBlk x i b c = x.score i (Attn.Inputs.key ⟨b, h⟩ c) := dif_pos h

theorem vBlk_of_lt {b : ℕ} (h : b < 8) (c : Fin 1024) :
    vBlk x d b c = x.Vp (Attn.Inputs.key ⟨b, h⟩ c) d := dif_pos h

theorem sBlk_fin (b : Fin 8) (c : Fin 1024) : sBlk x i b.val c = x.score i (Attn.Inputs.key b c) :=
  sBlk_of_lt x i b.isLt c

theorem vBlk_fin (b : Fin 8) (c : Fin 1024) : vBlk x d b.val c = x.Vp (Attn.Inputs.key b c) d :=
  vBlk_of_lt x d b.isLt c

/-- After the eighth block the running maximum is the maximum of the whole row. -/
theorem runM_eq_rowMax : runM (sBlk x i) 7 = x.rowMax i := by
  refine x.rowMax_unique i _ (fun j => ?_) ?_
  · obtain ⟨b, c, rfl⟩ := Attn.Inputs.key_surj j
    have h := runM_le (sBlk x i) 7 b.val (Nat.lt_succ_iff.mp b.isLt) c
    rwa [sBlk_fin] at h
  · obtain ⟨b, hb, c, hc⟩ := runM_attained (sBlk x i) 7
    refine ⟨Attn.Inputs.key ⟨b, Nat.lt_succ_iff.mpr hb⟩ c, ?_⟩
    rw [← hc, sBlk_of_lt x i (Nat.lt_succ_iff.mpr hb)]

/-- After the eighth block the running sum is the softmax denominator. -/
theorem runL_eq_denom : runL (sBlk x i) 7 = x.denom i := by
  rw [runL_eq, runM_eq_rowMax, Attn.Inputs.denom, Attn.Inputs.sum_keys,
    ← Fin.sum_univ_eq_sum_range (fun b => ∑ c, Real.exp (sBlk x i b c - x.rowMax i)) (7 + 1)]
  refine Finset.sum_congr rfl (fun b _ => Finset.sum_congr rfl (fun c _ => ?_))
  rw [sBlk_fin, Attn.Inputs.weight]

/-- After the eighth block the running weighted sum is the softmax numerator. -/
theorem runA_eq_numer :
    runA (sBlk x i) (vBlk x d) 7 = ∑ j, x.weight i j * x.Vp j d := by
  rw [runA_eq, runM_eq_rowMax, Attn.Inputs.sum_keys,
    ← Fin.sum_univ_eq_sum_range
      (fun b => ∑ c, Real.exp (sBlk x i b c - x.rowMax i) * vBlk x d b c) (7 + 1)]
  refine Finset.sum_congr rfl (fun b _ => Finset.sum_congr rfl (fun c _ => ?_))
  rw [sBlk_fin, vBlk_fin, Attn.Inputs.weight]

/-- The quotient of the two running sums after the eighth block is the attention output. -/
theorem online_eq_out : runA (sBlk x i) (vBlk x d) 7 / runL (sBlk x i) 7 = x.out i d := by
  rw [runA_eq_numer, runL_eq_denom, Attn.Inputs.out, Finset.sum_div]
  exact Finset.sum_congr rfl (fun j _ => (div_mul_eq_mul_div _ _ _).symm)

end Specialisation

end Attn.Online
-- ==== Proof.RealBlocks.lean ====
/- Real blocks as vectors of extended reals, and the real quantities one key block contributes to a query block:
   the projected key and value rows of the block and the scores of the query rows against them. -/
import Idealize.ShloMosaic.PureOps.Ideal.Laws
import Idealize.ShloMosaic.Lib.ValueIdx
import proofs.«153045_j22763326669315_2_alg».proof.Proof.Algebra

noncomputable section

namespace Cert.KernelIdeal.StepValue

open Idealize.ShloMosaic

/-- A real `[a, b]` block as a vector of extended reals. -/
def c2 {a b : ℕ} (f : Fin a → Fin b → ℝ) : (⟨2, ![a, b]⟩ : Shape).Idx → EReal := fun i => ((f (i 0) (i 1) : ℝ) : EReal)
/-- A real column `[a, 1]`. -/
def col {a : ℕ} (f : Fin a → ℝ) : (⟨2, ![a, 1]⟩ : Shape).Idx → EReal := fun i => ((f (i 0) : ℝ) : EReal)
/-- A real row `[1, b]`. -/
def row {b : ℕ} (f : Fin b → ℝ) : (⟨2, ![1, b]⟩ : Shape).Idx → EReal := fun i => ((f (i 1) : ℝ) : EReal)

/-- Projected key row `c` of a key block: `k W + b` with the weight already transposed. -/
def kproj (kb : Fin 1024 → Fin 128 → ℝ) (wk : Fin 128 → Fin 64 → ℝ) (bk : Fin 64 → ℝ) (c : Fin 1024) (a : Fin 64) : ℝ :=
  (∑ e, kb c e * wk e a) + bk a
/-- Projected value row `c` of a value block. -/
def vproj (vb : Fin 1024 → Fin 64 → ℝ) (wv : Fin 64 → Fin 64 → ℝ) (bv : Fin 64 → ℝ) (c : Fin 1024) (d : Fin 64) : ℝ :=
  (∑ e, vb c e * wv e d) + bv d
/-- The score of query row `r` of the projected query block against key row `c` of the block. -/
def sc (qp : Fin 1024 → Fin 64 → ℝ) (kb : Fin 1024 → Fin 128 → ℝ) (wk : Fin 128 → Fin 64 → ℝ) (bk : Fin 64 → ℝ)
    (r c : Fin 1024) : ℝ := ∑ a, qp r a * kproj kb wk bk c a
/-- The running maximum after the block: the larger of the old one and the block's row maximum. -/
def newM (qp : Fin 1024 → Fin 64 → ℝ) (kb : Fin 1024 → Fin 128 → ℝ) (wk : Fin 128 → Fin 64 → ℝ) (bk : Fin 64 → ℝ)
    (mo : Fin 1024 → ℝ) (r : Fin 1024) : ℝ := max (mo r) (Attn.Online.blockMax (sc qp kb wk bk r))

end Cert.KernelIdeal.StepValue

end
-- ==== Proof.StepSpec.lean ====
/- The real quantities of one grid point, in terms of the specification.

   At the grid point (query block `qi`, key block `kv`) the body sees the query block's rows, the key and value
   blocks' rows and the (transposed, and for the query pre-scaled by 1/8) weights.  Here: the projected query block is
   the specification's projected query row times 1/8 (the scale distributes over the sum and the bias); the block's
   scores are the specification's scores of those rows, block by block; the block's projected values are the
   specification's; so one step of the body's running maximum / denominator / accumulator is one step of the running
   softmax over the block-indexed scores. -/
import proofs.«153045_j22763326669315_2_alg».proof.Proof.RealBlocks

noncomputable section

namespace Cert.KernelIdeal.StepSpec

open Attn Attn.Online Attn.Inputs Cert.KernelIdeal.StepValue

variable (x : Inputs) (qi : Fin 4)

/-- The query block's rows. -/
def qbR (r : Fin 1024) (e : Fin 128) : ℝ := x.q (qrow qi r) e
/-- The transposed query weight, scaled by 1/8. -/
def wqR (e : Fin 128) (a : Fin 64) : ℝ := x.Wq a e * (1 / 8)
/-- The query bias, scaled by 1/8. -/
def bqR (a : Fin 64) : ℝ := x.bq a * (1 / 8)
/-- The projected query block: the specification's, times 1/8. -/
def qpR (r : Fin 1024) (a : Fin 64) : ℝ := x.Qp (qrow qi r) a * (1 / 8)
/-- Key block `kv`'s rows. -/
def kbR (kv : Fin 8) (c : Fin 1024) (e : Fin 128) : ℝ := x.k (key kv c) e
/-- Value block `kv`'s rows. -/
def vbR (kv : Fin 8) (c : Fin 1024) (e : Fin 64) : ℝ := x.v (key kv c) e
/-- The transposed key weight. -/
def wkR (e : Fin 128) (a : Fin 64) : ℝ := x.Wk a e
/-- The transposed value weight. -/
def wvR (e : Fin 64) (d : Fin 64) : ℝ := x.Wv d e

/-- Scaling the weight and the bias by 1/8 scales the projection by 1/8. -/
theorem qproj_eq (r : Fin 1024) (a : Fin 64) : (∑ e, qbR x qi r e * wqR x e a) + bqR x a = qpR x qi r a := by
  unfold qbR wqR bqR qpR Inputs.Qp
  rw [add_mul, Finset.sum_mul]
  congr 1
  exact Finset.sum_congr rfl (fun e _ => by ring)

/-- The block's scores are the specification's scores of its rows: the 1/8 in the query projection is the division by 8. -/
theorem sc_eq (kv : Fin 8) (r c : Fin 1024) :
    sc (qpR x qi) (kbR x kv) (wkR x) x.bk r c = sBlk x (qrow qi r) kv.val c := by
  rw [sBlk_fin]
  unfold sc kproj qpR kbR wkR Inputs.score Inputs.Kp
  rw [Finset.sum_div]
  exact Finset.sum_congr rfl (fun a _ => by ring)

/-- The same, as an equality of the row's score functions. -/
theorem sc_fun (kv : Fin 8) (r : Fin 1024) : sc (qpR x qi) (kbR x kv) (wkR x) x.bk r = sBlk x (qrow qi r) kv.val :=
  funext (sc_eq x qi kv r)

/-- The block's projected values are the specification's. -/
theorem vproj_eq (kv : Fin 8) (c : Fin 1024) (d : Fin 64) : vproj (vbR x kv) (wvR x) x.bv c d = vBlk x d kv.val c := by
  rw [vBlk_fin]; rfl

/-! ## The first key block -/

/-- The first block's row maximum is the running maximum after one block. -/
theorem firstM (kv : Fin 8) (h : kv.val = 0) (r : Fin 1024) :
    blockMax (sc (qpR x qi) (kbR x kv) (wkR x) x.bk r) = runM (sBlk x (qrow qi r)) kv.val := by
  rw [sc_fun, h]; rfl

/-- The first block's shifted exponentials sum to the running denominator after one block. -/
theorem firstL (kv : Fin 8) (h : kv.val = 0) (r : Fin 1024) :
    (∑ c, Real.exp (sc (qpR x qi) (kbR x kv) (wkR x) x.bk r c - blockMax (sc (qpR x qi) (kbR x kv) (wkR x) x.bk r)))
      = runL (sBlk x (qrow qi r)) kv.val := by
  rw [sc_fun, h]; rfl

/-- The first block's weighted projected values sum to the running accumulator after one block. -/
theorem firstA (kv : Fin 8) (h : kv.val = 0) (r : Fin 1024) (d : Fin 64) :
    (∑ c, Real.exp (sc (qpR x qi) (kbR x kv) (wkR x) x.bk r c - blockMax (sc (qpR x qi) (kbR x kv) (wkR x) x.bk r))
        * vproj (vbR x kv) (wvR x) x.bv c d)
      = runA (sBlk x (qrow qi r)) (vBlk x d) kv.val := by
  rw [sc_fun, h]
  simp only [vproj_eq, h]
  rfl

/-! ## A later key block -/

/-- The larger of the running maximum after block `k` and block `k + 1`'s row maximum is the running maximum after block `k + 1`. -/
theorem nextM (kv : Fin 8) (k : ℕ) (h : kv.val = k + 1) (r : Fin 1024) :
    newM (qpR x qi) (kbR x kv) (wkR x) x.bk (fun r => runM (sBlk x (qrow qi r)) k) r = runM (sBlk x (qrow qi r)) kv.val := by
  unfold newM
  rw [sc_fun, h]; rfl

/-- Rescaling the denominator to the new maximum and adding block `k + 1`'s shifted exponentials is one step of the running denominator. -/
theorem nextL (kv : Fin 8) (k : ℕ) (h : kv.val = k + 1) (r : Fin 1024) :
    Real.exp (runM (sBlk x (qrow qi r)) k - newM (qpR x qi) (kbR x kv) (wkR x) x.bk (fun r => runM (sBlk x (qrow qi r)) k) r)
        * runL (sBlk x (qrow qi r)) k
      + ∑ c, Real.exp (sc (qpR x qi) (kbR x kv) (wkR x) x.bk r c
          - newM (qpR x qi) (kbR x kv) (wkR x) x.bk (fun r => runM (sBlk x (qrow qi r)) k) r)
      = runL (sBlk x (qrow qi r)) kv.val := by
  rw [nextM x qi kv k h, sc_fun, h]; rfl

/-- Rescaling the accumulator to the new maximum and adding block `k + 1`'s weighted projected values is one step of the running accumulator. -/
theorem nextA (kv : Fin 8) (k : ℕ) (h : kv.val = k + 1) (r : Fin 1024) (d : Fin 64) :
    Real.exp (runM (sBlk x (qrow qi r)) k - newM (qpR x qi) (kbR x kv) (wkR x) x.bk (fun r => runM (sBlk x (qrow qi r)) k) r)
        * runA (sBlk x (qrow qi r)) (vBlk x d) k
      + ∑ c, Real.exp (sc (qpR x qi) (kbR x kv) (wkR x) x.bk r c
          - newM (qpR x qi) (kbR x kv) (wkR x) x.bk (fun r => runM (sBlk x (qrow qi r)) k) r)
          * vproj (vbR x kv) (wvR x) x.bv c d
      = runA (sBlk x (qrow qi r)) (vBlk x d) kv.val := by
  rw [nextM x qi kv k h, sc_fun]
  simp only [vproj_eq, h]
  rfl

/-! ## After the last key block -/

/-- The accumulator over the denominator after all eight key blocks is the attention output. -/
theorem last (r : Fin 1024) (d : Fin 64) :
    runA (sBlk x (qrow qi r)) (vBlk x d) 7 / runL (sBlk x (qrow qi r)) 7 = x.out (qrow qi r) d :=
  online_eq_out x (qrow qi r) d

/-- The denominator after all eight key blocks is positive, hence not zero. -/
theorem lastL_ne (r : Fin 1024) : runL (sBlk x (qrow qi r)) 7 ≠ 0 := (runL_pos _ 7).ne'

end Cert.KernelIdeal.StepSpec

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibMatmulABt.lean ====
/-
  A matrix product against a transposed right operand, read at coordinates, over the extended reals.

  Both operands carry the shared axis as their SECOND axis: the left operand is `[m, k]`, the right one `[n, k]`,
  and the result `[m, n]` at `(p, q)` is the inner product of row `p` of the left operand with row `q` of the
  right one — the product `A · Bᵀ`. Into the zero accumulator nothing else is added, so the entry is exactly
  `∑ c, A (p, c) · B (q, c)`. Stated for any extents `m`, `k`, `n`; a product record of a program with these
  dimension numbers unfolds to `abtDims`.
-/
import Idealize.ShloMosaic.Lib.ValueIdx
import Idealize.ShloMosaic.PureOps.Ideal.Laws

noncomputable section

namespace Cert.LibMatmulABt

open Idealize.ShloMosaic Idealize.ShloMosaic.ValueIdx
open scoped BigOperators

/-- The dimension numbers of an `[m, k]` by `[n, k]` product contracted on the second axis of both operands, no batch
    axis: the result's rows are the left operand's rows, its columns the right operand's rows. -/
abbrev abtDims {m k n : Nat} (wf : DotDims.WF (⟨2, ![m, k]⟩ : Shape) ⟨2, ![n, k]⟩ ⟨2, ![m, n]⟩ [1] [1] [0] [0] [] []) :
    DotDims ⟨2, ![m, k]⟩ ⟨2, ![n, k]⟩ ⟨2, ![m, n]⟩ := ⟨[1], [1], [0], [0], [], [], wf⟩

section Abt
variable {m k n : Nat} (wf : DotDims.WF (⟨2, ![m, k]⟩ : Shape) ⟨2, ![n, k]⟩ ⟨2, ![m, n]⟩ [1] [1] [0] [0] [] [])

/-- The left operand is read in the result's row … -/
theorem abt_lhs_row (j : (⟨2, ![m, n]⟩ : Shape).Idx) (c : (abtDims wf).contr.Idx) :
    ((abtDims wf).lhsIdx j c 0).val = (j 0).val := by
  unfold DotDims.lhsIdx
  rw [dif_neg (show ¬(0 : Fin (⟨2, ![m, k]⟩ : Shape).rank) ∈ (abtDims wf).lhsBatch from List.not_mem_nil),
    dif_pos (show (0 : Fin (⟨2, ![m, k]⟩ : Shape).rank) ∈ (abtDims wf).lhsNonContracting from List.mem_singleton.mpr rfl)]
  rfl

/-- … and the right operand in the row named by the result's column. -/
theorem abt_rhs_row (j : (⟨2, ![m, n]⟩ : Shape).Idx) (c : (abtDims wf).contr.Idx) :
    ((abtDims wf).rhsIdx j c 0).val = (j 1).val := by
  unfold DotDims.rhsIdx
  rw [dif_neg (show ¬(0 : Fin (⟨2, ![n, k]⟩ : Shape).rank) ∈ (abtDims wf).rhsBatch from List.not_mem_nil),
    dif_pos (show (0 : Fin (⟨2, ![n, k]⟩ : Shape).rank) ∈ (abtDims wf).rhsNonContracting from List.mem_singleton.mpr rfl)]
  rfl

/-- The sum over the contraction index of such a product is the sum over the shared axis of the products of row `p`
    of the left operand and row `q` of the right one. -/
theorem sum_contr_abt {φ₁ φ₂ : FTy} (l : FVec Ideal ⟨2, ![m, k]⟩ φ₁) (r : FVec Ideal ⟨2, ![n, k]⟩ φ₂) (p : Fin m) (q : Fin n) :
    ∑ c : (abtDims wf).contr.Idx, l ((abtDims wf).lhsIdx (ix2 p q) c) * r ((abtDims wf).rhsIdx (ix2 p q) c)
      = ∑ c : Fin k, l (ix2 p c) * r (ix2 q c) := by
  rw [← Equiv.sum_comp (contrEquiv1 (abtDims wf) k rfl rfl).symm]
  refine Finset.sum_congr rfl fun c _ => ?_
  have hc := contrEquiv1_symm_val (abtDims wf) k rfl rfl c
  have el : (abtDims wf).lhsIdx (ix2 p q) ((contrEquiv1 (abtDims wf) k rfl rfl).symm c) = ix2 p c :=
    funext fun a => Fin.ext (by
      match a with
      | ⟨0, _⟩ => exact abt_lhs_row wf _ _
      | ⟨1, _⟩ => exact ((abtDims wf).lhsIdx_val_of_single rfl _ _).trans hc)
  have er : (abtDims wf).rhsIdx (ix2 p q) ((contrEquiv1 (abtDims wf) k rfl rfl).symm c) = ix2 q c :=
    funext fun a => Fin.ext (by
      match a with
      | ⟨0, _⟩ => exact abt_rhs_row wf _ _
      | ⟨1, _⟩ => exact ((abtDims wf).rhsIdx_val_of_single rfl _ _).trans hc)
  rw [el, er]

/-- Such a product into the zero accumulator reads, at `(p, q)`, the inner product of row `p` of the left operand and
    row `q` of the right one. -/
theorem matmul_zero_abt {φ₁ φ₂ : FTy} (l : FVec Ideal ⟨2, ![m, k]⟩ φ₁) (r : FVec Ideal ⟨2, ![n, k]⟩ φ₂)
    (p : Fin m) (q : Fin n) :
    FloatOps.matmul (abtDims wf) none l r (constant (F := Ideal) ⟨2, ![m, n]⟩ .f32 0x00000000#32) (ix2 p q)
      = ∑ c : Fin k, l (ix2 p c) * r (ix2 q c) := by
  rw [Ideal.matmul_constant_zero_apply]
  exact sum_contr_abt wf l r p q

end Abt

end Cert.LibMatmulABt

end
-- ==== Proof.StepValue.lean ====
/- One key block of the running softmax, read over the reals.

   When every block the step reads holds real numbers, each quantity the step computes is again a real block, and it is
   the one the running-softmax recurrences name: the block's scores are the inner products of the projected query rows
   with the projected key rows; the new running maximum is the larger of the old one and the scores' row maximum; the old
   denominator and accumulator are rescaled by the exponential of the old maximum less the new one, and the block's shifted
   exponentials (times the projected value rows, for the accumulator) are added.  From the reset values (minus infinity,
   zero, zero) the rescaling factor is the exponential of minus infinity, which is zero, so only the block's own terms
   remain.  The output block is the accumulator divided row by row by a nonzero denominator, and the projected query
   block is the query block times the weight plus the bias. -/
import proofs.«153045_j22763326669315_2_alg».proof.Proof.Pieces
import proofs.«153045_j22763326669315_2_alg».proof.Proof.RealBlocks
import proofs.«153045_j22763326669315_2_alg».proof.Proof.Algebra
import proofs.«153045_j22763326669315_2_alg».proof.Proof.LibFinite
import proofs.«153045_j22763326669315_2_alg».proof.Proof.LibKeepdims
import proofs.«153045_j22763326669315_2_alg».proof.Proof.LibPlainMatmul
import proofs.«153045_j22763326669315_2_alg».proof.Proof.LibMatmulABt

noncomputable section

open Idealize.ShloMosaic Idealize.ShloMosaic.ValueIdx
open scoped BigOperators

namespace Cert.KernelIdeal.StepValue

open Cert.KernelIdeal Cert.KernelIdeal.Gen Cert.KernelIdeal.Pieces

/-! ## Real blocks read at coordinates -/

theorem c2_ix2 {a b : ℕ} (f : Fin a → Fin b → ℝ) (p : Fin a) (q : Fin b) : c2 f (ix2 p q) = ((f p q : ℝ) : EReal) := rfl
theorem col_ix2 {a : ℕ} (f : Fin a → ℝ) (p : Fin a) (u : Fin 1) : col f (ix2 p u) = ((f p : ℝ) : EReal) := rfl
theorem row_ix2 {b : ℕ} (f : Fin b → ℝ) (u : Fin 1) (q : Fin b) : row f (ix2 u q) = ((f q : ℝ) : EReal) := rfl

/-- A real row repeated down the rows reads its entry in the column. -/
theorem row_broadcast_apply {m n : ℕ} (b : Fin n → ℝ) (h : (⟨2, ![1, n]⟩ : Shape).Broadcasts ⟨2, ![m, n]⟩)
    (r : Fin m) (a : Fin n) : broadcastTo ⟨2, ![m, n]⟩ (row b) h (ix2 r a) = ((b a : ℝ) : EReal) := by
  refine (broadcastTo_apply (row b) h (ix2 r a) (ix2 (0 : Fin 1) a) fun ax => ?_).trans rfl
  match ax with
  | ⟨0, _⟩ => rfl
  | ⟨1, _⟩ =>
    show a.val = if n = 1 then 0 else a.val
    split
    · have := a.isLt; omega
    · rfl

/-- A sum of products of reals, read in the extended reals. -/
theorem coe_sum_mul {k : ℕ} (f g : Fin k → ℝ) :
    ∑ e : Fin k, ((f e : ℝ) : EReal) * ((g e : ℝ) : EReal) = ((∑ e, f e * g e : ℝ) : EReal) := by
  rw [LibFinite.coe_finset_sum]
  exact Finset.sum_congr rfl fun e _ => (EReal.coe_mul _ _).symm

/-- A rows-by-columns product of two real blocks plus a bias row, at an entry. -/
theorem proj_apply {m k n : ℕ} (wf : DotDims.WF (⟨2, ![m, k]⟩ : Shape) ⟨2, ![k, n]⟩ ⟨2, ![m, n]⟩ [1] [0] [0] [1] [] [])
    (hb : (⟨2, ![1, n]⟩ : Shape).Broadcasts ⟨2, ![m, n]⟩) (φ₁ φ₂ : FTy)
    (l : Fin m → Fin k → ℝ) (w : Fin k → Fin n → ℝ) (b : Fin n → ℝ) (r : Fin m) (a : Fin n) :
    FloatOps.matmul (F := Ideal) (φ₁ := φ₁) (φ₂ := φ₂) (Cert.LibPlainMatmul.plainDims wf) none (c2 l) (c2 w)
        (constant (F := Ideal) ⟨2, ![m, n]⟩ .f32 0x00000000#32) (ix2 r a)
      + broadcastTo ⟨2, ![m, n]⟩ (row b) hb (ix2 r a)
      = (((∑ e, l r e * w e a) + b a : ℝ) : EReal) := by
  rw [Cert.LibPlainMatmul.matmul_zero_plain, row_broadcast_apply, EReal.coe_add, ← coe_sum_mul]
  rfl

/-- The projected query block over real blocks: the query block times the weight, plus the bias row. -/
theorem qProj_real (qb : Fin 1024 → Fin 128 → ℝ) (wq : Fin 128 → Fin 64 → ℝ) (bq : Fin 64 → ℝ) :
    qProj (F := Ideal) (c2 qb) (c2 wq) (row bq) = c2 (fun r a => (∑ e, qb r e * wq e a) + bq a) := by
  funext j
  rw [eq_ix2 j]
  unfold qProj k0_pay9
  simp only [shapeCast_self]
  exact proj_apply dot_S1024x128_S128x64_S1024x64_1_0_0_1_n_n_wf broadcasts_S1x64_S1024x64 .bf16 .bf16 qb wq bq (j 0) (j 1)

/-- The same, as one vector: a product of two real blocks plus a bias row is a real block. -/
theorem proj_vec {m k n : ℕ} (wf : DotDims.WF (⟨2, ![m, k]⟩ : Shape) ⟨2, ![k, n]⟩ ⟨2, ![m, n]⟩ [1] [0] [0] [1] [] [])
    (hb : (⟨2, ![1, n]⟩ : Shape).Broadcasts ⟨2, ![m, n]⟩) (φ₁ φ₂ : FTy)
    (l : Fin m → Fin k → ℝ) (w : Fin k → Fin n → ℝ) (b : Fin n → ℝ) :
    addf (F := Ideal) (φ := .f32)
        (FloatOps.matmul (F := Ideal) (φ₁ := φ₁) (φ₂ := φ₂) (Cert.LibPlainMatmul.plainDims wf) none (c2 l) (c2 w)
          (constant (F := Ideal) ⟨2, ![m, n]⟩ .f32 0x00000000#32))
        (broadcastTo ⟨2, ![m, n]⟩ (row b) hb)
      = c2 (fun r a => (∑ e, l r e * w e a) + b a) := by
  funext j
  rw [eq_ix2 j]
  exact proj_apply wf hb φ₁ φ₂ l w b (j 0) (j 1)

/-- The projected value block. -/
theorem pay10_real (vb : Fin 1024 → Fin 64 → ℝ) (wv : Fin 64 → Fin 64 → ℝ) (bv : Fin 64 → ℝ) :
    k0_pay10 (F := Ideal) (c2 vb) (c2 wv) (row bv) = c2 (vproj vb wv bv) := by
  unfold k0_pay10
  simp only [shapeCast_self]
  exact proj_vec dot_S1024x64_S64x64_S1024x64_1_0_0_1_n_n_wf broadcasts_S1x64_S1024x64 .bf16 .bf16 vb wv bv

/-- The block of scores. -/
theorem pay11_real (kb : Fin 1024 → Fin 128 → ℝ) (wk : Fin 128 → Fin 64 → ℝ) (bk : Fin 64 → ℝ) (qp : Fin 1024 → Fin 64 → ℝ) :
    k0_pay11 (F := Ideal) (c2 kb) (c2 wk) (row bk) (c2 qp) = c2 (sc qp kb wk bk) := by
  have hk := proj_vec dot_S1024x128_S128x64_S1024x64_1_0_0_1_n_n_wf broadcasts_S1x64_S1024x64 .bf16 .bf16 kb wk bk
  funext j
  rw [eq_ix2 j]
  unfold k0_pay11
  simp only [shapeCast_self]
  refine (Cert.LibMatmulABt.matmul_zero_abt dot_S1024x64_S1024x64_S1024x1024_1_1_0_0_n_n_wf _ _ (j 0) (j 1)).trans ?_
  refine (Finset.sum_congr rfl fun a _ => ?_).trans (coe_sum_mul (fun a => qp (j 0) a) (fun a => kproj kb wk bk (j 1) a))
  exact congrArg (fun t : (⟨2, ![1024, 64]⟩ : Shape).Idx → EReal => c2 qp (ix2 (j 0) a) * t (ix2 (j 1) a)) hk

/-- The accumulator word of the row maximum is minus infinity. -/
theorem ofBits_neg_inf_f32 : Ideal.ofBits .f32 0xFF800000#32 = ⊥ := by
  simp [Ideal.ofBits, Ideal.ieee]

/-- The maximum over the second axis of a real block, from minus infinity, is the real maximum of the row. -/
theorem rowmax_apply {a b : ℕ} (hb : (Finset.univ : Finset (Fin b)).Nonempty) (S : Fin a → Fin b → ℝ) (acc : BitVec FTy.f32.bits)
    (h : Shape.Reduces ⟨2, ![a, b]⟩ [1] ⟨1, ![a]⟩) (hφ : FKind.Formats .f32) (hacc : acc = FKind.maximumf.neutral .f32 hφ)
    (hbot : Ideal.ofBits .f32 acc = ⊥) (p : Fin a) :
    multiReduction (F := Ideal) .maximumf [1] ⟨1, ![a]⟩ (c2 S : FVec Ideal ⟨2, ![a, b]⟩ .f32) acc h hφ hacc (ix1 p)
      = ((Finset.univ.sup' hb (S p) : ℝ) : EReal) := by
  refine (Ideal.multiReduction_maximumf_single (c2 S : FVec Ideal ⟨2, ![a, b]⟩ .f32) acc h hφ hacc (ix1 p)).trans ?_
  rw [Ideal.ofBits_def, hbot]
  refine Eq.trans ?_ (Attn.Online.fold_max_coe Finset.univ hb (S p))
  refine congrArg (Finset.fold max (⊥ : EReal) · Finset.univ) (funext fun k => ?_)
  exact congrArg (c2 S) (funext fun ax => Fin.ext (by
      match ax with
      | ⟨0, _⟩ => rfl
      | ⟨1, _⟩ => rfl))

/-- The row maximum of a real block, kept as a column. -/
theorem rowmax_real (S : Fin 1024 → Fin 1024 → ℝ) :
    shapeCast S1024x1 (multiReduction (F := Ideal) .maximumf [1] S1024 (c2 S : FVec Ideal S1024x1024 .f32) 0xFF800000#32
        reduces_S1024x1024_S1024 (.inl rfl) rfl) shapeCasts_S1024_S1024x1
      = col (fun r => Attn.Online.blockMax (S r)) := by
  funext j
  obtain ⟨r, u, rfl⟩ : ∃ (r : Fin 1024) (u : Fin 1), j = ix2 r u := ⟨j 0, j 1, eq_ix2 j⟩
  refine (Cert.LibKeepdims.shapeCast_a_a1_apply _ shapeCasts_S1024_S1024x1 r u).trans ?_
  exact rowmax_apply Finset.univ_nonempty S 0xFF800000#32 reduces_S1024x1024_S1024 (.inl rfl) rfl ofBits_neg_inf_f32 r

/-- The reset value of the running maximum is minus infinity everywhere. -/
theorem m0_apply (j : S1024x1.Idx) : (m0 (F := Ideal)) j = (⊥ : EReal) := by
  unfold m0 k0_pay6
  simp only [shapeCast_self]
  exact ofBits_neg_inf_f32

/-- The reset value of the running denominator is the zero column. -/
theorem l0_eq : (l0 (F := Ideal)) = col (fun _ => 0) := by
  unfold l0 k0_pay7
  simp only [shapeCast_self]
  funext j
  exact Ideal.ofBits_zero_f32

/-- The reset value of the running accumulator is the zero block. -/
theorem a0_eq : (a0 (F := Ideal)) = c2 (fun _ _ => 0) := by
  unfold a0 k0_pay8
  simp only [shapeCast_self]
  funext j
  exact Ideal.ofBits_zero_f32

/-- The new running maximum, from a real old one. -/
theorem pay12_real (kb : Fin 1024 → Fin 128 → ℝ) (wk : Fin 128 → Fin 64 → ℝ) (bk : Fin 64 → ℝ) (qp : Fin 1024 → Fin 64 → ℝ)
    (mo : Fin 1024 → ℝ) :
    k0_pay12 (F := Ideal) (c2 kb) (c2 wk) (row bk) (c2 qp) (col mo) = col (newM qp kb wk bk mo) := by
  unfold k0_pay12
  rw [pay11_real]
  funext j
  obtain ⟨r, u, rfl⟩ : ∃ (r : Fin 1024) (u : Fin 1), j = ix2 r u := ⟨j 0, j 1, eq_ix2 j⟩
  refine (maximumf_apply _ _ _).trans ?_
  rw [rowmax_real]
  exact Attn.Online.max_coe _ _

/-- The new running maximum, from minus infinity: the block's row maximum. -/
theorem pay12_bot (kb : Fin 1024 → Fin 128 → ℝ) (wk : Fin 128 → Fin 64 → ℝ) (bk : Fin 64 → ℝ) (qp : Fin 1024 → Fin 64 → ℝ) :
    k0_pay12 (F := Ideal) (c2 kb) (c2 wk) (row bk) (c2 qp) m0
      = col (fun r => Attn.Online.blockMax (sc qp kb wk bk r)) := by
  unfold k0_pay12
  rw [pay11_real]
  funext j
  refine (maximumf_apply _ _ _).trans ?_
  rw [rowmax_real, m0_apply]
  exact max_bot_left _

/-- The running maximum after a key block, over real blocks: the larger of the old maximum and the row maximum of the block's scores. -/
theorem stepM_real (kb : Fin 1024 → Fin 128 → ℝ) (wk : Fin 128 → Fin 64 → ℝ) (bk : Fin 64 → ℝ) (qp : Fin 1024 → Fin 64 → ℝ)
    (mo : Fin 1024 → ℝ) :
    stepM (F := Ideal) (c2 kb) (c2 wk) (row bk) (c2 qp) (col mo) = col (newM qp kb wk bk mo) := by
  unfold stepM k0_pay4
  rw [shapeCast_self, pay12_real]

/-- The running maximum after a key block, from the reset value minus infinity: the row maximum of the block's scores. -/
theorem stepM_bot (kb : Fin 1024 → Fin 128 → ℝ) (wk : Fin 128 → Fin 64 → ℝ) (bk : Fin 64 → ℝ) (qp : Fin 1024 → Fin 64 → ℝ) :
    stepM (F := Ideal) (c2 kb) (c2 wk) (row bk) (c2 qp) m0
      = col (fun r => Attn.Online.blockMax (sc qp kb wk bk r)) := by
  unfold stepM k0_pay4
  rw [shapeCast_self, pay12_bot]

/-- The exponential of a difference of reals. -/
theorem exp_sub_coe (x y : ℝ) : Ideal.exp ((x : EReal) - (y : EReal)) = ((Real.exp (x - y) : ℝ) : EReal) := by
  rw [← EReal.coe_sub, Ideal.exp_coe]

/-- The exponential of minus infinity less a real is zero. -/
theorem exp_bot_sub_coe (y : ℝ) : Ideal.exp ((⊥ : EReal) - (y : EReal)) = ((0 : ℝ) : EReal) := by
  rw [EReal.bot_sub, Ideal.exp_bot, EReal.coe_zero]

/-- A real column repeated along the rows. -/
theorem col_broadcast {a b : ℕ} (f : Fin a → ℝ) (h : (⟨2, ![a, 1]⟩ : Shape).Broadcasts ⟨2, ![a, b]⟩) :
    broadcastTo ⟨2, ![a, b]⟩ (col f) h = c2 (fun r _ => f r) := by
  funext j
  obtain ⟨r, c, rfl⟩ : ∃ (r : Fin a) (c : Fin b), j = ix2 r c := ⟨j 0, j 1, eq_ix2 j⟩
  exact Cert.LibKeepdims.broadcastTo_a1_ab_apply (col f) h r c

/-- The rescaling factor of the old sums, from a real old maximum. -/
theorem pay13_real (kb : Fin 1024 → Fin 128 → ℝ) (wk : Fin 128 → Fin 64 → ℝ) (bk : Fin 64 → ℝ) (qp : Fin 1024 → Fin 64 → ℝ)
    (mo mo' : Fin 1024 → ℝ) :
    k0_pay13 (F := Ideal) (c2 kb) (c2 wk) (row bk) (c2 qp) (col mo) (col mo')
      = col (fun r => Real.exp (mo' r - newM qp kb wk bk mo r)) := by
  unfold k0_pay13
  rw [pay12_real]
  funext j
  obtain ⟨r, u, rfl⟩ : ∃ (r : Fin 1024) (u : Fin 1), j = ix2 r u := ⟨j 0, j 1, eq_ix2 j⟩
  exact exp_sub_coe _ _

/-- The rescaling factor of the old sums, from minus infinity: zero. -/
theorem pay13_bot (kb : Fin 1024 → Fin 128 → ℝ) (wk : Fin 128 → Fin 64 → ℝ) (bk : Fin 64 → ℝ) (qp : Fin 1024 → Fin 64 → ℝ) :
    k0_pay13 (F := Ideal) (c2 kb) (c2 wk) (row bk) (c2 qp) m0 m0 = col (fun _ => 0) := by
  unfold k0_pay13
  rw [pay12_bot]
  funext j
  obtain ⟨r, u, rfl⟩ : ∃ (r : Fin 1024) (u : Fin 1), j = ix2 r u := ⟨j 0, j 1, eq_ix2 j⟩
  refine (congrArg (fun t : EReal => Ideal.exp (t - ((Attn.Online.blockMax (sc qp kb wk bk r) : ℝ) : EReal))) (m0_apply (ix2 r u))).trans ?_
  exact exp_bot_sub_coe _

/-- The new running maximum repeated along the score block's rows. -/
theorem pay14_real (kb : Fin 1024 → Fin 128 → ℝ) (wk : Fin 128 → Fin 64 → ℝ) (bk : Fin 64 → ℝ) (qp : Fin 1024 → Fin 64 → ℝ)
    (mo : Fin 1024 → ℝ) :
    k0_pay14 (F := Ideal) (c2 kb) (c2 wk) (row bk) (c2 qp) (col mo) = c2 (fun r _ => newM qp kb wk bk mo r) := by
  unfold k0_pay14
  rw [pay12_real]
  exact col_broadcast _ _

/-- The new running maximum repeated along the score block's rows, from the reset value minus infinity. -/
theorem pay14_bot (kb : Fin 1024 → Fin 128 → ℝ) (wk : Fin 128 → Fin 64 → ℝ) (bk : Fin 64 → ℝ) (qp : Fin 1024 → Fin 64 → ℝ) :
    k0_pay14 (F := Ideal) (c2 kb) (c2 wk) (row bk) (c2 qp) m0
      = c2 (fun r _ => Attn.Online.blockMax (sc qp kb wk bk r)) := by
  unfold k0_pay14
  rw [pay12_bot]
  exact col_broadcast _ _

/-- The shifted exponentials of a real score block. -/
theorem pay1_real (S : Fin 1024 → Fin 1024 → ℝ) (M : Fin 1024 → ℝ) :
    k0_pay1 (F := Ideal) (c2 S) (c2 (fun r _ => M r)) = c2 (fun r c => Real.exp (S r c - M r)) := by
  unfold k0_pay1
  funext j
  obtain ⟨r, c, rfl⟩ : ∃ (r : Fin 1024) (c : Fin 1024), j = ix2 r c := ⟨j 0, j 1, eq_ix2 j⟩
  exact exp_sub_coe _ _

/-- The sum along the rows of a real block, kept as a column. -/
theorem rowsum_real (E : Fin 1024 → Fin 1024 → ℝ) :
    shapeCast S1024x1 (multiReduction (F := Ideal) .add [1] S1024 (c2 E : FVec Ideal S1024x1024 .f32) 0x00000000#32
        reduces_S1024x1024_S1024 (.inl rfl) rfl) shapeCasts_S1024_S1024x1
      = col (fun r => ∑ c, E r c) := by
  funext j
  obtain ⟨r, u, rfl⟩ : ∃ (r : Fin 1024) (u : Fin 1), j = ix2 r u := ⟨j 0, j 1, eq_ix2 j⟩
  refine (Cert.LibKeepdims.shapeCast_a_a1_apply _ shapeCasts_S1024_S1024x1 r u).trans ?_
  refine (Cert.LibKeepdims.multiReduction_add_row (c2 E : FVec Ideal ⟨2, ![1024, 1024]⟩ .f32) 0x00000000#32
    reduces_S1024x1024_S1024 (.inl rfl) rfl r).trans ?_
  exact (LibFinite.coe_finset_sum Finset.univ (fun c => E r c)).symm

/-- The new running denominator from real data. -/
theorem pay2_real (S : Fin 1024 → Fin 1024 → ℝ) (al M lo : Fin 1024 → ℝ) :
    k0_pay2 (F := Ideal) (c2 S) (col al) (c2 (fun r _ => M r)) (col lo)
      = col (fun r => al r * lo r + ∑ c, Real.exp (S r c - M r)) := by
  unfold k0_pay2
  simp only [shapeCast_self]
  rw [pay1_real, rowsum_real]
  funext j
  obtain ⟨r, u, rfl⟩ : ∃ (r : Fin 1024) (u : Fin 1), j = ix2 r u := ⟨j 0, j 1, eq_ix2 j⟩
  show ((al r : ℝ) : EReal) * ((lo r : ℝ) : EReal) + ((∑ c, Real.exp (S r c - M r) : ℝ) : EReal) = _
  rw [← EReal.coe_mul, ← EReal.coe_add]
  rfl

/-- The running denominator after a key block, over real blocks: the old one rescaled to the new maximum, plus the row sum of the block's shifted exponentials. -/
theorem stepL_real (kb : Fin 1024 → Fin 128 → ℝ) (wk : Fin 128 → Fin 64 → ℝ) (bk : Fin 64 → ℝ) (qp : Fin 1024 → Fin 64 → ℝ)
    (mo lo : Fin 1024 → ℝ) :
    stepL (F := Ideal) (c2 kb) (c2 wk) (row bk) (c2 qp) (col mo) (col lo)
      = col (fun r => Real.exp (mo r - newM qp kb wk bk mo r) * lo r
          + ∑ c, Real.exp (sc qp kb wk bk r c - newM qp kb wk bk mo r)) := by
  unfold stepL
  rw [pay11_real, pay13_real, pay14_real, pay2_real]

/-- The running denominator after a key block, from the reset values: the row sum of the exponentials of the scores less their row maximum. -/
theorem stepL_bot (kb : Fin 1024 → Fin 128 → ℝ) (wk : Fin 128 → Fin 64 → ℝ) (bk : Fin 64 → ℝ) (qp : Fin 1024 → Fin 64 → ℝ) :
    stepL (F := Ideal) (c2 kb) (c2 wk) (row bk) (c2 qp) m0 l0
      = col (fun r => ∑ c, Real.exp (sc qp kb wk bk r c - Attn.Online.blockMax (sc qp kb wk bk r))) := by
  unfold stepL
  rw [pay11_real, pay13_bot, pay14_bot, l0_eq, pay2_real]
  congr 1
  funext r
  rw [zero_mul, zero_add]

/-- The new running accumulator from real data. -/
theorem pay3_real (V : Fin 1024 → Fin 64 → ℝ) (S : Fin 1024 → Fin 1024 → ℝ) (al M : Fin 1024 → ℝ) (ao : Fin 1024 → Fin 64 → ℝ) :
    k0_pay3 (F := Ideal) (c2 V) (c2 S) (col al) (c2 (fun r _ => M r)) (c2 ao)
      = c2 (fun r d => al r * ao r d + ∑ c, Real.exp (S r c - M r) * V c d) := by
  unfold k0_pay3
  simp only [shapeCast_self]
  rw [pay1_real, col_broadcast]
  funext j
  obtain ⟨r, d, rfl⟩ : ∃ (r : Fin 1024) (d : Fin 64), j = ix2 r d := ⟨j 0, j 1, eq_ix2 j⟩
  refine (congrArg (((al r : ℝ) : EReal) * ((ao r d : ℝ) : EReal) + ·)
    (Cert.LibPlainMatmul.matmul_zero_plain dot_S1024x1024_S1024x64_S1024x64_1_0_0_1_n_n_wf _ _ r d)).trans ?_
  refine (congrArg (((al r : ℝ) : EReal) * ((ao r d : ℝ) : EReal) + ·)
    (coe_sum_mul (fun c => Real.exp (S r c - M r)) (fun c => V c d))).trans ?_
  rw [← EReal.coe_mul, ← EReal.coe_add]
  rfl

/-- The running accumulator after a key block, over real blocks: the old one rescaled to the new maximum, plus the block's shifted exponentials times the projected value rows. -/
theorem stepA_real (kb : Fin 1024 → Fin 128 → ℝ) (vb : Fin 1024 → Fin 64 → ℝ) (wk : Fin 128 → Fin 64 → ℝ) (bk : Fin 64 → ℝ)
    (wv : Fin 64 → Fin 64 → ℝ) (bv : Fin 64 → ℝ) (qp : Fin 1024 → Fin 64 → ℝ) (mo : Fin 1024 → ℝ) (ao : Fin 1024 → Fin 64 → ℝ) :
    stepA (F := Ideal) (c2 kb) (c2 vb) (c2 wk) (row bk) (c2 wv) (row bv) (c2 qp) (col mo) (c2 ao)
      = c2 (fun r d => Real.exp (mo r - newM qp kb wk bk mo r) * ao r d
          + ∑ c, Real.exp (sc qp kb wk bk r c - newM qp kb wk bk mo r) * vproj vb wv bv c d) := by
  unfold stepA
  rw [pay10_real, pay11_real, pay13_real, pay14_real, pay3_real]

/-- The running accumulator after a key block, from the reset values: the exponentials of the scores less their row maximum, times the projected value rows. -/
theorem stepA_bot (kb : Fin 1024 → Fin 128 → ℝ) (vb : Fin 1024 → Fin 64 → ℝ) (wk : Fin 128 → Fin 64 → ℝ) (bk : Fin 64 → ℝ)
    (wv : Fin 64 → Fin 64 → ℝ) (bv : Fin 64 → ℝ) (qp : Fin 1024 → Fin 64 → ℝ) :
    stepA (F := Ideal) (c2 kb) (c2 vb) (c2 wk) (row bk) (c2 wv) (row bv) (c2 qp) m0 a0
      = c2 (fun r d => ∑ c, Real.exp (sc qp kb wk bk r c - Attn.Online.blockMax (sc qp kb wk bk r)) * vproj vb wv bv c d) := by
  unfold stepA
  rw [pay10_real, pay11_real, pay13_bot, pay14_bot, a0_eq, pay3_real]
  congr 1
  funext r d
  rw [zero_mul, zero_add]

/-- The output block over real blocks: each accumulator row divided by its nonzero denominator. -/
theorem outOf_real (a : Fin 1024 → Fin 64 → ℝ) (l : Fin 1024 → ℝ) (hl : ∀ r, l r ≠ 0) :
    outOf (F := Ideal) (c2 a) (col l) = c2 (fun r d => a r d / l r) := by
  unfold outOf k0_pay5
  dsimp only
  rw [col_broadcast]
  funext j
  obtain ⟨r, d, rfl⟩ : ∃ (r : Fin 1024) (d : Fin 64), j = ix2 r d := ⟨j 0, j 1, eq_ix2 j⟩
  exact LibFinite.div_coe_coe (a r d) (hl r)

end Cert.KernelIdeal.StepValue

end
-- ==== Proof.Blocks.lean ====
/-
  What the nine input windows' blocks hold at a grid point, as real entries.

  Before the grid runs, the argument arrays are prepared: the queries, keys and values are narrowed (no change of
  exact value); the query projection's weights and bias are multiplied by one eighth, the three weight matrices are
  transposed, and the three biases are laid out as one row. The grid is 4 × 8: point `t` works on query block
  `t / 8` and key block `t % 8`, blocks of 1024 rows; the weights and biases are one block each, the same at every
  point. Each statement below reads a window's block at a point as the real array it is the coercion of, given that
  the argument arrays are coercions of real arrays.
-/
import proofs.«153045_j22763326669315_2_alg».proof.Proof.Gen.KernelIdeal.Frame
import proofs.«153045_j22763326669315_2_alg».proof.Proof.Spec
import proofs.«153045_j22763326669315_2_alg».proof.Proof.LibFinite
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.ValueIdx Idealize.ShloMosaic.StableHlo

namespace Cert.KernelIdeal.Blocks

open Cert.KernelIdeal Cert.KernelIdeal.Gen

variable [Cert.KernelIdeal.Facts]
variable (m : (ℓ : Loc nD τ sig) → Buf (Elt Ideal) ℓ)

/-! ## The constant one eighth -/

/-- The f32 pattern with exponent field 124 and no fraction bit denotes one eighth. -/
theorem eighth : Ideal.ofBits .f32 0x3E000000#32 = ((1 / 8 : ℝ) : EReal) := by
  simp [Ideal.ofBits, Ideal.ieee, -EReal.coe_mul]; norm_num

/-! ## The query block and the key block of a grid point -/

/-- The query block of point `t` of the 4 × 8 grid: `t / 8`. -/
def qblk (t : Fin cfg0.N) : Fin 4 := ⟨t.val / 8, by have h : t.val < grid0.N := t.isLt; rw [N_0] at h; omega⟩
/-- The key block of point `t` of the 4 × 8 grid: `t % 8`. -/
def kblk (t : Fin cfg0.N) : Fin 8 := ⟨t.val % 8, Nat.mod_lt _ (by norm_num)⟩

/-! ## The windows' arrays as terms of the argument arrays -/

/-- The query array as the grid finds it: the query argument, the narrowing of the float format changing no exact value. -/
theorem V_v13 (c : Dev nD) : (V m c main_v13 : S4096x128.Idx → EReal)
    = truncf (F := Ideal) .bf16 (m ((c : Thread nD τ).loc main_arg0) : S4096x128.Idx → EReal) bitsLt_bf16_f32 := by
  dsimp only [Gen.V, Gen.hostOps0]; after_results; all_goals rfl

/-- The key array as the grid finds it: the key argument, the narrowing of the float format changing no exact value. -/
theorem V_v14 (c : Dev nD) : (V m c main_v14 : S8192x128.Idx → EReal)
    = truncf (F := Ideal) .bf16 (m ((c : Thread nD τ).loc main_arg1) : S8192x128.Idx → EReal) bitsLt_bf16_f32 := by
  dsimp only [Gen.V, Gen.hostOps0]; after_results; all_goals rfl

/-- The value array as the grid finds it: the value argument, the narrowing of the float format changing no exact value. -/
theorem V_v15 (c : Dev nD) : (V m c main_v15 : S8192x64.Idx → EReal)
    = truncf (F := Ideal) .bf16 (m ((c : Thread nD τ).loc main_arg2) : S8192x64.Idx → EReal) bitsLt_bf16_f32 := by
  dsimp only [Gen.V, Gen.hostOps0]; after_results; all_goals rfl

/-- The query weight as the grid finds it: the argument times the constant of pattern 0x3E000000 entrywise, transposed to [128,64]. -/
theorem V_v3 (c : Dev nD) : (V m c main_v3 : S128x64.Idx → EReal)
    = truncf (F := Ideal) .bf16 (transpose S128x64 [1, 0]
        (mulf (m ((c : Thread nD τ).loc main_arg3) : S64x128.Idx → EReal)
          (broadcastInDim S64x128 ![] bcast_S_S64x128 (constant (F := Ideal) S_ .f32 0x3E000000#32)))
        transposes_S64x128_S128x64_1_0) bitsLt_bf16_f32 := by
  dsimp only [Gen.V, Gen.hostOps0]; after_results; all_goals rfl

/-- The query bias as the grid finds it: the argument times the constant of pattern 0x3E000000 entrywise, laid out as one row [1,64]. -/
theorem V_v6 (c : Dev nD) : (V m c main_v6 : S1x64.Idx → EReal)
    = shapeCast S1x64 (mulf (m ((c : Thread nD τ).loc main_arg4) : S64.Idx → EReal)
        (broadcastInDim S64 ![] bcast_S_S64 (constant (F := Ideal) S_ .f32 0x3E000000#32))) shapeCasts_S64_S1x64 := by
  dsimp only [Gen.V, Gen.hostOps0]; after_results; all_goals rfl

/-- The key weight as the grid finds it: the argument transposed to [128,64]. -/
theorem V_v8 (c : Dev nD) : (V m c main_v8 : S128x64.Idx → EReal)
    = truncf (F := Ideal) .bf16 (transpose S128x64 [1, 0] (m ((c : Thread nD τ).loc main_arg5) : S64x128.Idx → EReal) transposes_S64x128_S128x64_1_0) bitsLt_bf16_f32 := by
  dsimp only [Gen.V, Gen.hostOps0]; after_results; all_goals rfl

/-- The key bias as the grid finds it: the argument laid out as one row [1,64]. -/
theorem V_v9 (c : Dev nD) : (V m c main_v9 : S1x64.Idx → EReal)
    = shapeCast S1x64 (m ((c : Thread nD τ).loc main_arg6) : S64.Idx → EReal) shapeCasts_S64_S1x64 := by
  dsimp only [Gen.V, Gen.hostOps0]; after_results; all_goals rfl

/-- The value weight as the grid finds it: the argument transposed. -/
theorem V_v11 (c : Dev nD) : (V m c main_v11 : S64x64.Idx → EReal)
    = truncf (F := Ideal) .bf16 (transpose S64x64 [1, 0] (m ((c : Thread nD τ).loc main_arg7) : S64x64.Idx → EReal) transposes_S64x64_S64x64_1_0) bitsLt_bf16_f32 := by
  dsimp only [Gen.V, Gen.hostOps0]; after_results; all_goals rfl

/-- The value bias as the grid finds it: the argument laid out as one row [1,64]. -/
theorem V_v12 (c : Dev nD) : (V m c main_v12 : S1x64.Idx → EReal)
    = shapeCast S1x64 (m ((c : Thread nD τ).loc main_arg8) : S64.Idx → EReal) shapeCasts_S64_S1x64 := by
  dsimp only [Gen.V, Gen.hostOps0]; after_results; all_goals rfl

/-! ## Those terms read at an index -/

/-- A transposed [64,128] array read at (p, q) is the array at (q, p); narrowing the format changes no exact value. -/
theorem read_T128x64 (A : S64x128.Idx → EReal) (j : S128x64.Idx) :
    truncf (F := Ideal) .bf16 (transpose S128x64 [1, 0] A transposes_S64x128_S128x64_1_0) bitsLt_bf16_f32 j = A (ix2 (j 1) (j 0)) := by
  exact (congrArg (transpose S128x64 [1, 0] A transposes_S64x128_S128x64_1_0) (eq_ix2 j)).trans
    (transpose_ix2_apply A transposes_S64x128_S128x64_1_0 (j 0) (j 1))

/-- A transposed [64,64] array read at (p, q) is the array at (q, p). -/
theorem read_T64x64 (A : S64x64.Idx → EReal) (j : S64x64.Idx) :
    truncf (F := Ideal) .bf16 (transpose S64x64 [1, 0] A transposes_S64x64_S64x64_1_0) bitsLt_bf16_f32 j = A (ix2 (j 1) (j 0)) := by
  exact (congrArg (transpose S64x64 [1, 0] A transposes_S64x64_S64x64_1_0) (eq_ix2 j)).trans
    (transpose_ix2_apply A transposes_S64x64_S64x64_1_0 (j 0) (j 1))

/-- A [64] array laid out as [1,64] read at (u, p) is the array at p. -/
theorem read_R1x64 (A : S64.Idx → EReal) (j : S1x64.Idx) :
    shapeCast S1x64 A shapeCasts_S64_S1x64 j = A (ix1 (j 1)) := by
  exact (congrArg (shapeCast S1x64 A shapeCasts_S64_S1x64) (eq_ix2 j)).trans
    (shapeCast_a_1a_apply A shapeCasts_S64_S1x64 (j 0) (j 1))

/-! ## The blocks -/

/-- The key weight's block, the same at every point: entry (e, a) is the real weight at (a, e). -/
theorem blk5 (x : Attn.Inputs) (c : Dev nD)
    (e5 : m ((c : Thread nD τ).loc main_arg5) = fun i => ((x.Wk (i 0) (i 1) : ℝ) : EReal)) (t : Fin cfg0.N) :
    (iblk m c 5 t : S128x64.Idx → EReal) = fun i => ((x.Wk (i 1) (i 0) : ℝ) : EReal) := by
  have hi : win0_5.index t 0 = 0 ∧ win0_5.index t 1 = 0 :=
    (by decide +kernel : ∀ t : Fin grid0.N, win0_5.index t 0 = 0 ∧ win0_5.index t 1 = 0) t
  funext j
  unfold iblk
  rw [View.read_apply]
  have hj : (((cfg0.win 5).blk t).view.emb j : S128x64.Idx) = j := by
    funext a
    apply Fin.ext
    match a with
    | ⟨0, _⟩ => show win0_5.index t 0 * 128 + 1 * (j 0).val = (j 0).val; rw [hi.1]; omega
    | ⟨1, _⟩ => show win0_5.index t 1 * 64 + 1 * (j 1).val = (j 1).val; rw [hi.2]; omega
  refine (congrArg (V m c main_v8 : S128x64.Idx → EReal) hj).trans ?_
  rw [V_v8, read_T128x64, e5]
  rfl

/-- The key bias's block, the same at every point: one row whose entry a is the real bias at a. -/
theorem blk6 (x : Attn.Inputs) (c : Dev nD)
    (e6 : m ((c : Thread nD τ).loc main_arg6) = fun i => ((x.bk (i 0) : ℝ) : EReal)) (t : Fin cfg0.N) :
    (iblk m c 6 t : S1x64.Idx → EReal) = fun i => ((x.bk (i 1) : ℝ) : EReal) := by
  have hi : win0_6.index t 0 = 0 ∧ win0_6.index t 1 = 0 :=
    (by decide +kernel : ∀ t : Fin grid0.N, win0_6.index t 0 = 0 ∧ win0_6.index t 1 = 0) t
  funext j
  unfold iblk
  rw [View.read_apply]
  have hj : (((cfg0.win 6).blk t).view.emb j : S1x64.Idx) = j := by
    funext a
    apply Fin.ext
    match a with
    | ⟨0, _⟩ => show win0_6.index t 0 * 1 + 1 * (j 0).val = (j 0).val; rw [hi.1]; omega
    | ⟨1, _⟩ => show win0_6.index t 1 * 64 + 1 * (j 1).val = (j 1).val; rw [hi.2]; omega
  refine (congrArg (V m c main_v9 : S1x64.Idx → EReal) hj).trans ?_
  rw [V_v9, read_R1x64, e6]
  rfl

/-- The value weight's block, the same at every point: entry (e, d) is the real weight at (d, e). -/
theorem blk7 (x : Attn.Inputs) (c : Dev nD)
    (e7 : m ((c : Thread nD τ).loc main_arg7) = fun i => ((x.Wv (i 0) (i 1) : ℝ) : EReal)) (t : Fin cfg0.N) :
    (iblk m c 7 t : S64x64.Idx → EReal) = fun i => ((x.Wv (i 1) (i 0) : ℝ) : EReal) := by
  have hi : win0_7.index t 0 = 0 ∧ win0_7.index t 1 = 0 :=
    (by decide +kernel : ∀ t : Fin grid0.N, win0_7.index t 0 = 0 ∧ win0_7.index t 1 = 0) t
  funext j
  unfold iblk
  rw [View.read_apply]
  have hj : (((cfg0.win 7).blk t).view.emb j : S64x64.Idx) = j := by
    funext a
    apply Fin.ext
    match a with
    | ⟨0, _⟩ => show win0_7.index t 0 * 64 + 1 * (j 0).val = (j 0).val; rw [hi.1]; omega
    | ⟨1, _⟩ => show win0_7.index t 1 * 64 + 1 * (j 1).val = (j 1).val; rw [hi.2]; omega
  refine (congrArg (V m c main_v11 : S64x64.Idx → EReal) hj).trans ?_
  rw [V_v11, read_T64x64, e7]
  rfl

/-- The value bias's block, the same at every point: one row whose entry d is the real bias at d. -/
theorem blk8 (x : Attn.Inputs) (c : Dev nD)
    (e8 : m ((c : Thread nD τ).loc main_arg8) = fun i => ((x.bv (i 0) : ℝ) : EReal)) (t : Fin cfg0.N) :
    (iblk m c 8 t : S1x64.Idx → EReal) = fun i => ((x.bv (i 1) : ℝ) : EReal) := by
  have hi : win0_8.index t 0 = 0 ∧ win0_8.index t 1 = 0 :=
    (by decide +kernel : ∀ t : Fin grid0.N, win0_8.index t 0 = 0 ∧ win0_8.index t 1 = 0) t
  funext j
  unfold iblk
  rw [View.read_apply]
  have hj : (((cfg0.win 8).blk t).view.emb j : S1x64.Idx) = j := by
    funext a
    apply Fin.ext
    match a with
    | ⟨0, _⟩ => show win0_8.index t 0 * 1 + 1 * (j 0).val = (j 0).val; rw [hi.1]; omega
    | ⟨1, _⟩ => show win0_8.index t 1 * 64 + 1 * (j 1).val = (j 1).val; rw [hi.2]; omega
  refine (congrArg (V m c main_v12 : S1x64.Idx → EReal) hj).trans ?_
  rw [V_v12, read_R1x64, e8]
  rfl

/-- The query weight's block, the same at every point: entry (e, a) is the real weight at (a, e) times one eighth. -/
theorem blk3 (x : Attn.Inputs) (c : Dev nD)
    (e3 : m ((c : Thread nD τ).loc main_arg3) = fun i => ((x.Wq (i 0) (i 1) : ℝ) : EReal)) (t : Fin cfg0.N) :
    (iblk m c 3 t : S128x64.Idx → EReal) = fun i => ((x.Wq (i 1) (i 0) * (1 / 8) : ℝ) : EReal) := by
  have hi : win0_3.index t 0 = 0 ∧ win0_3.index t 1 = 0 :=
    (by decide +kernel : ∀ t : Fin grid0.N, win0_3.index t 0 = 0 ∧ win0_3.index t 1 = 0) t
  funext j
  unfold iblk
  rw [View.read_apply]
  have hj : (((cfg0.win 3).blk t).view.emb j : S128x64.Idx) = j := by
    funext a
    apply Fin.ext
    match a with
    | ⟨0, _⟩ => show win0_3.index t 0 * 128 + 1 * (j 0).val = (j 0).val; rw [hi.1]; omega
    | ⟨1, _⟩ => show win0_3.index t 1 * 64 + 1 * (j 1).val = (j 1).val; rw [hi.2]; omega
  refine (congrArg (V m c main_v3 : S128x64.Idx → EReal) hj).trans ?_
  rw [V_v3, read_T128x64, e3]
  show ((x.Wq (j 1) (j 0) : ℝ) : EReal) * Ideal.ofBits .f32 0x3E000000#32 = _
  rw [eighth, ← EReal.coe_mul]

/-- The query bias's block, the same at every point: one row whose entry a is the real bias at a times one eighth. -/
theorem blk4 (x : Attn.Inputs) (c : Dev nD)
    (e4 : m ((c : Thread nD τ).loc main_arg4) = fun i => ((x.bq (i 0) : ℝ) : EReal)) (t : Fin cfg0.N) :
    (iblk m c 4 t : S1x64.Idx → EReal) = fun i => ((x.bq (i 1) * (1 / 8) : ℝ) : EReal) := by
  have hi : win0_4.index t 0 = 0 ∧ win0_4.index t 1 = 0 :=
    (by decide +kernel : ∀ t : Fin grid0.N, win0_4.index t 0 = 0 ∧ win0_4.index t 1 = 0) t
  funext j
  unfold iblk
  rw [View.read_apply]
  have hj : (((cfg0.win 4).blk t).view.emb j : S1x64.Idx) = j := by
    funext a
    apply Fin.ext
    match a with
    | ⟨0, _⟩ => show win0_4.index t 0 * 1 + 1 * (j 0).val = (j 0).val; rw [hi.1]; omega
    | ⟨1, _⟩ => show win0_4.index t 1 * 64 + 1 * (j 1).val = (j 1).val; rw [hi.2]; omega
  refine (congrArg (V m c main_v6 : S1x64.Idx → EReal) hj).trans ?_
  rw [V_v6, read_R1x64, e4]
  show ((x.bq (j 1) : ℝ) : EReal) * Ideal.ofBits .f32 0x3E000000#32 = _
  rw [eighth, ← EReal.coe_mul]

/-- The query block at point `t`: rows `1024 * (t / 8) + r` of the real query array, all 128 columns. -/
theorem blk0 (x : Attn.Inputs) (c : Dev nD)
    (e0 : m ((c : Thread nD τ).loc main_arg0) = fun i => ((x.q (i 0) (i 1) : ℝ) : EReal)) (t : Fin cfg0.N) :
    (iblk m c 0 t : S1024x128.Idx → EReal) = fun i => ((x.q (Attn.Inputs.qrow (qblk t) (i 0)) (i 1) : ℝ) : EReal) := by
  have hi : win0_0.index t 0 = t.val / 8 ∧ win0_0.index t 1 = 0 :=
    (by decide +kernel : ∀ t : Fin grid0.N, win0_0.index t 0 = t.val / 8 ∧ win0_0.index t 1 = 0) t
  funext j
  unfold iblk
  rw [View.read_apply]
  have hj : (((cfg0.win 0).blk t).view.emb j : S4096x128.Idx) = ix2 (Attn.Inputs.qrow (qblk t) (j 0)) (j 1) := by
    funext a
    apply Fin.ext
    match a with
    | ⟨0, _⟩ => show win0_0.index t 0 * 1024 + 1 * (j 0).val = 1024 * (t.val / 8) + (j 0).val; rw [hi.1]; omega
    | ⟨1, _⟩ => show win0_0.index t 1 * 128 + 1 * (j 1).val = (j 1).val; rw [hi.2]; omega
  refine (congrArg (V m c main_v13 : S4096x128.Idx → EReal) hj).trans ?_
  rw [V_v13, e0]
  rfl

/-- The key block at point `t`: rows `1024 * (t % 8) + r` of the real key array, all 128 columns. -/
theorem blk1 (x : Attn.Inputs) (c : Dev nD)
    (e1 : m ((c : Thread nD τ).loc main_arg1) = fun i => ((x.k (i 0) (i 1) : ℝ) : EReal)) (t : Fin cfg0.N) :
    (iblk m c 1 t : S1024x128.Idx → EReal) = fun i => ((x.k (Attn.Inputs.key (kblk t) (i 0)) (i 1) : ℝ) : EReal) := by
  have hi : win0_1.index t 0 = t.val % 8 ∧ win0_1.index t 1 = 0 :=
    (by decide +kernel : ∀ t : Fin grid0.N, win0_1.index t 0 = t.val % 8 ∧ win0_1.index t 1 = 0) t
  funext j
  unfold iblk
  rw [View.read_apply]
  have hj : (((cfg0.win 1).blk t).view.emb j : S8192x128.Idx) = ix2 (Attn.Inputs.key (kblk t) (j 0)) (j 1) := by
    funext a
    apply Fin.ext
    match a with
    | ⟨0, _⟩ => show win0_1.index t 0 * 1024 + 1 * (j 0).val = 1024 * (t.val % 8) + (j 0).val; rw [hi.1]; omega
    | ⟨1, _⟩ => show win0_1.index t 1 * 128 + 1 * (j 1).val = (j 1).val; rw [hi.2]; omega
  refine (congrArg (V m c main_v14 : S8192x128.Idx → EReal) hj).trans ?_
  rw [V_v14, e1]
  rfl

/-- The value block at point `t`: rows `1024 * (t % 8) + r` of the real value array, all 64 columns. -/
theorem blk2 (x : Attn.Inputs) (c : Dev nD)
    (e2 : m ((c : Thread nD τ).loc main_arg2) = fun i => ((x.v (i 0) (i 1) : ℝ) : EReal)) (t : Fin cfg0.N) :
    (iblk m c 2 t : S1024x64.Idx → EReal) = fun i => ((x.v (Attn.Inputs.key (kblk t) (i 0)) (i 1) : ℝ) : EReal) := by
  have hi : win0_2.index t 0 = t.val % 8 ∧ win0_2.index t 1 = 0 :=
    (by decide +kernel : ∀ t : Fin grid0.N, win0_2.index t 0 = t.val % 8 ∧ win0_2.index t 1 = 0) t
  funext j
  unfold iblk
  rw [View.read_apply]
  have hj : (((cfg0.win 2).blk t).view.emb j : S8192x64.Idx) = ix2 (Attn.Inputs.key (kblk t) (j 0)) (j 1) := by
    funext a
    apply Fin.ext
    match a with
    | ⟨0, _⟩ => show win0_2.index t 0 * 1024 + 1 * (j 0).val = 1024 * (t.val % 8) + (j 0).val; rw [hi.1]; omega
    | ⟨1, _⟩ => show win0_2.index t 1 * 64 + 1 * (j 1).val = (j 1).val; rw [hi.2]; omega
  refine (congrArg (V m c main_v15 : S8192x64.Idx → EReal) hj).trans ?_
  rw [V_v15, e2]
  rfl

end Cert.KernelIdeal.Blocks

end
-- ==== Proof.Invariant.lean ====
/- The state of the attention body after every grid point, and the output block after the last key block.

   The grid runs over 4 query blocks and, inside each, 8 key blocks.  After key block `k` of query block `qi` the
   scratches hold, for each of the block's 1024 query rows, the running maximum of the row's scores against the first
   `k + 1` key blocks, the sum of the exponentials of those scores shifted by that maximum, and the sum of those
   exponentials times the projected value rows — the three quantities of a running softmax — beside the projected
   query block.  The first key block starts from the reset values (minus infinity, zero, zero), every later one steps
   from what the point before left; the point before lies in the same query block.  After the last key block the
   accumulator over the denominator is the softmax-weighted average of the projected values: the attention output of
   the query block's rows. -/
import proofs.«153045_j22763326669315_2_alg».proof.Proof.Pieces
import proofs.«153045_j22763326669315_2_alg».proof.Proof.StepSpec
import proofs.«153045_j22763326669315_2_alg».proof.Proof.StepValue
import proofs.«153045_j22763326669315_2_alg».proof.Proof.Blocks
import Idealize.ShloMosaic.Lib.Pipeline.Value

set_option maxRecDepth 16384

noncomputable section

open Idealize.ShloMosaic Idealize.ShloMosaic.TcCoe Idealize.SL.Sem

namespace Cert.KernelIdeal.Invariant

open Cert.KernelIdeal Cert.KernelIdeal.Gen Cert.KernelIdeal.Pieces Cert.KernelIdeal.StepValue Cert.KernelIdeal.StepSpec
open Attn Attn.Online Attn.Inputs

/-- What the output's staging buffer and the four scratches hold after a point. -/
abbrev Outs := Vec Ideal S1024x64 .f32 × Vec Ideal S1024x1 .f32 × Vec Ideal S1024x1 .f32 × Vec Ideal S1024x64 .f32 × Vec Ideal S1024x64 .f32

/-- The state after key block `k` of query block `qi`: the running maximum, denominator and accumulator of the running
    softmax over the first `k + 1` key blocks, row by row, and the projected query block (scaled by 1/8). -/
structure Inv (x : Inputs) (qi : Fin 4) (k : ℕ) (o : Outs) : Prop where
  hm : o.2.1 = col (fun r => runM (sBlk x (qrow qi r)) k)
  hl : o.2.2.1 = col (fun r => runL (sBlk x (qrow qi r)) k)
  ha : o.2.2.2.1 = c2 (fun r d => runA (sBlk x (qrow qi r)) (vBlk x d) k)
  hq : o.2.2.2.2 = c2 (qpR x qi)

variable (x : Inputs) (qi : Fin 4)

/-- The first key block: the query is projected, and one step from the reset values gives the running softmax of
    one block. -/
theorem first_step (kv : Fin 8) (hkv : kv.val = 0) (o9 : Vec Ideal S1024x64 .f32)
    (qb kb : Vec Ideal S1024x128 .bf16) (vb : Vec Ideal S1024x64 .bf16) (wq wk : Vec Ideal S128x64 .bf16) (bq bk bv : Vec Ideal S1x64 .f32)
    (wv : Vec Ideal S64x64 .bf16)
    (hqb : qb = c2 (qbR x qi)) (hkb : kb = c2 (kbR x kv)) (hvb : vb = c2 (vbR x kv)) (hwq : wq = c2 (wqR x)) (hbq : bq = row (bqR x))
    (hwk : wk = c2 (wkR x)) (hbk : bk = row x.bk) (hwv : wv = c2 (wvR x)) (hbv : bv = row x.bv) :
    Inv x qi kv.val (o9, stepM kb wk bk (qProj qb wq bq) m0, stepL kb wk bk (qProj qb wq bq) m0 l0,
      stepA kb vb wk bk wv bv (qProj qb wq bq) m0 a0, qProj qb wq bq) := by
  subst hqb hkb hvb hwq hbq hwk hbk hwv hbv
  have hq : qProj (F := Ideal) (c2 (qbR x qi)) (c2 (wqR x)) (row (bqR x)) = c2 (qpR x qi) := by
    rw [qProj_real]; congr 1; funext r a; exact qproj_eq x qi r a
  rw [hq]
  refine ⟨?_, ?_, ?_, rfl⟩
  · show stepM _ _ _ _ _ = _
    rw [stepM_bot]; congr 1; funext r; exact firstM x qi kv hkv r
  · show stepL _ _ _ _ _ _ = _
    rw [stepL_bot]; congr 1; funext r; exact firstL x qi kv hkv r
  · show stepA _ _ _ _ _ _ _ _ _ = _
    rw [stepA_bot]; congr 1; funext r d; exact firstA x qi kv hkv r d

/-- A later key block: one step from the state after block `k` gives the state after block `k + 1`. -/
theorem next_step (kv : Fin 8) (k : ℕ) (hkv : kv.val = k + 1) (o9 : Vec Ideal S1024x64 .f32) (p : Outs) (hp : Inv x qi k p)
    (kb : Vec Ideal S1024x128 .bf16) (vb : Vec Ideal S1024x64 .bf16) (wk : Vec Ideal S128x64 .bf16) (bk bv : Vec Ideal S1x64 .f32)
    (wv : Vec Ideal S64x64 .bf16)
    (hkb : kb = c2 (kbR x kv)) (hvb : vb = c2 (vbR x kv)) (hwk : wk = c2 (wkR x)) (hbk : bk = row x.bk) (hwv : wv = c2 (wvR x)) (hbv : bv = row x.bv) :
    Inv x qi kv.val (o9, stepM kb wk bk p.2.2.2.2 p.2.1, stepL kb wk bk p.2.2.2.2 p.2.1 p.2.2.1,
      stepA kb vb wk bk wv bv p.2.2.2.2 p.2.1 p.2.2.2.1, p.2.2.2.2) := by
  subst hkb hvb hwk hbk hwv hbv
  obtain ⟨hm, hl, ha, hq⟩ := hp
  rw [hm, hl, ha, hq]
  refine ⟨?_, ?_, ?_, rfl⟩
  · show stepM _ _ _ _ _ = _
    rw [stepM_real]; congr 1; funext r; exact nextM x qi kv k hkv r
  · show stepL _ _ _ _ _ _ = _
    rw [stepL_real]; congr 1; funext r; exact nextL x qi kv k hkv r
  · show stepA _ _ _ _ _ _ _ _ _ = _
    rw [stepA_real]; congr 1; funext r d; exact nextA x qi kv k hkv r d

variable (m : (ℓ : Loc nD τ sig) → Buf (Elt Ideal) ℓ) (c : Dev nD)

/-- A point at the first key block of its query block. -/
theorem pointA (e0 : m ((c.tc : Thread nD τ).loc main_arg0) = fun i => ((x.q (i 0) (i 1) : ℝ) : EReal))
    (e1 : m ((c.tc : Thread nD τ).loc main_arg1) = fun i => ((x.k (i 0) (i 1) : ℝ) : EReal))
    (e2 : m ((c.tc : Thread nD τ).loc main_arg2) = fun i => ((x.v (i 0) (i 1) : ℝ) : EReal))
    (e3 : m ((c.tc : Thread nD τ).loc main_arg3) = fun i => ((x.Wq (i 0) (i 1) : ℝ) : EReal))
    (e4 : m ((c.tc : Thread nD τ).loc main_arg4) = fun i => ((x.bq (i 0) : ℝ) : EReal))
    (e5 : m ((c.tc : Thread nD τ).loc main_arg5) = fun i => ((x.Wk (i 0) (i 1) : ℝ) : EReal))
    (e6 : m ((c.tc : Thread nD τ).loc main_arg6) = fun i => ((x.bk (i 0) : ℝ) : EReal))
    (e7 : m ((c.tc : Thread nD τ).loc main_arg7) = fun i => ((x.Wv (i 0) (i 1) : ℝ) : EReal))
    (e8 : m ((c.tc : Thread nD τ).loc main_arg8) = fun i => ((x.bv (i 0) : ℝ) : EReal)) (t : Fin cfg0.N) (h0 : t.val % 8 = 0) (h1 : ¬t.val % 8 = 7) :
    Inv x (Blocks.qblk t) (t.val % 8) (outsAt0 m c t.val t.isLt) := by
  rw [outsAt0_A m c t h0 h1]
  rw [m_A, l_A, acc_A, q_A]
  exact first_step x (Blocks.qblk t) (Blocks.kblk t) h0 _ _ _ _ _ _ _ _ _ _
    (Blocks.blk0 m x c e0 t) (Blocks.blk1 m x c e1 t) (Blocks.blk2 m x c e2 t) (Blocks.blk3 m x c e3 t) (Blocks.blk4 m x c e4 t) (Blocks.blk5 m x c e5 t) (Blocks.blk6 m x c e6 t) (Blocks.blk7 m x c e7 t) (Blocks.blk8 m x c e8 t)

/-- A point at a middle key block, over the state the point before left. -/
theorem pointB (e0 : m ((c.tc : Thread nD τ).loc main_arg0) = fun i => ((x.q (i 0) (i 1) : ℝ) : EReal))
    (e1 : m ((c.tc : Thread nD τ).loc main_arg1) = fun i => ((x.k (i 0) (i 1) : ℝ) : EReal))
    (e2 : m ((c.tc : Thread nD τ).loc main_arg2) = fun i => ((x.v (i 0) (i 1) : ℝ) : EReal))
    (e3 : m ((c.tc : Thread nD τ).loc main_arg3) = fun i => ((x.Wq (i 0) (i 1) : ℝ) : EReal))
    (e4 : m ((c.tc : Thread nD τ).loc main_arg4) = fun i => ((x.bq (i 0) : ℝ) : EReal))
    (e5 : m ((c.tc : Thread nD τ).loc main_arg5) = fun i => ((x.Wk (i 0) (i 1) : ℝ) : EReal))
    (e6 : m ((c.tc : Thread nD τ).loc main_arg6) = fun i => ((x.bk (i 0) : ℝ) : EReal))
    (e7 : m ((c.tc : Thread nD τ).loc main_arg7) = fun i => ((x.Wv (i 0) (i 1) : ℝ) : EReal))
    (e8 : m ((c.tc : Thread nD τ).loc main_arg8) = fun i => ((x.bv (i 0) : ℝ) : EReal)) (t : Fin cfg0.N) (h0 : ¬t.val % 8 = 0) (h1 : ¬t.val % 8 = 7) (k : ℕ) (hk : t.val % 8 = k + 1)
    (qi' : Fin 4) (hqi : qi' = (Blocks.qblk t))
    (ih : Inv x qi' k (outsAt0 m c (t.val - 1) (Nat.lt_of_le_of_lt (Nat.sub_le _ _) t.isLt))) :
    Inv x (Blocks.qblk t) (t.val % 8) (outsAt0 m c t.val t.isLt) := by
  subst hqi
  rw [outsAt0_B m c t h0 h1]
  rw [m_B, l_B, acc_B]
  exact next_step x (Blocks.qblk t) (Blocks.kblk t) k hk _ _ ih _ _ _ _ _ _
    (Blocks.blk1 m x c e1 t) (Blocks.blk2 m x c e2 t) (Blocks.blk5 m x c e5 t) (Blocks.blk6 m x c e6 t) (Blocks.blk7 m x c e7 t) (Blocks.blk8 m x c e8 t)

/-- A point at the last key block: the state after all eight blocks, and the output block is the attention output
    of the query block's rows. -/
theorem pointC (e0 : m ((c.tc : Thread nD τ).loc main_arg0) = fun i => ((x.q (i 0) (i 1) : ℝ) : EReal))
    (e1 : m ((c.tc : Thread nD τ).loc main_arg1) = fun i => ((x.k (i 0) (i 1) : ℝ) : EReal))
    (e2 : m ((c.tc : Thread nD τ).loc main_arg2) = fun i => ((x.v (i 0) (i 1) : ℝ) : EReal))
    (e3 : m ((c.tc : Thread nD τ).loc main_arg3) = fun i => ((x.Wq (i 0) (i 1) : ℝ) : EReal))
    (e4 : m ((c.tc : Thread nD τ).loc main_arg4) = fun i => ((x.bq (i 0) : ℝ) : EReal))
    (e5 : m ((c.tc : Thread nD τ).loc main_arg5) = fun i => ((x.Wk (i 0) (i 1) : ℝ) : EReal))
    (e6 : m ((c.tc : Thread nD τ).loc main_arg6) = fun i => ((x.bk (i 0) : ℝ) : EReal))
    (e7 : m ((c.tc : Thread nD τ).loc main_arg7) = fun i => ((x.Wv (i 0) (i 1) : ℝ) : EReal))
    (e8 : m ((c.tc : Thread nD τ).loc main_arg8) = fun i => ((x.bv (i 0) : ℝ) : EReal)) (t : Fin cfg0.N) (h0 : ¬t.val % 8 = 0) (h1 : t.val % 8 = 7)
    (qi' : Fin 4) (hqi : qi' = (Blocks.qblk t))
    (ih : Inv x qi' 6 (outsAt0 m c (t.val - 1) (Nat.lt_of_le_of_lt (Nat.sub_le _ _) t.isLt))) :
    Inv x (Blocks.qblk t) (t.val % 8) (outsAt0 m c t.val t.isLt)
      ∧ (outsAt0 m c t.val t.isLt).1 = c2 (fun r d => x.out (qrow (Blocks.qblk t) r) d) := by
  subst hqi
  rw [outsAt0_C m c t h0 h1]
  rw [out_C, m_C, l_C, acc_C]
  have hI := next_step x (Blocks.qblk t) (Blocks.kblk t) 6 h1
    (outOf (stepA (iblk m c 1 t) (iblk m c 2 t) (iblk m c 5 t) (iblk m c 6 t) (iblk m c 7 t) (iblk m c 8 t)
        (outsAt0 m c (t.val - 1) (Nat.lt_of_le_of_lt (Nat.sub_le _ _) t.isLt)).2.2.2.2
        (outsAt0 m c (t.val - 1) (Nat.lt_of_le_of_lt (Nat.sub_le _ _) t.isLt)).2.1
        (outsAt0 m c (t.val - 1) (Nat.lt_of_le_of_lt (Nat.sub_le _ _) t.isLt)).2.2.2.1)
      (stepL (iblk m c 1 t) (iblk m c 5 t) (iblk m c 6 t)
        (outsAt0 m c (t.val - 1) (Nat.lt_of_le_of_lt (Nat.sub_le _ _) t.isLt)).2.2.2.2
        (outsAt0 m c (t.val - 1) (Nat.lt_of_le_of_lt (Nat.sub_le _ _) t.isLt)).2.1
        (outsAt0 m c (t.val - 1) (Nat.lt_of_le_of_lt (Nat.sub_le _ _) t.isLt)).2.2.1))
    _ ih _ _ _ _ _ _
    (Blocks.blk1 m x c e1 t) (Blocks.blk2 m x c e2 t) (Blocks.blk5 m x c e5 t) (Blocks.blk6 m x c e6 t) (Blocks.blk7 m x c e7 t) (Blocks.blk8 m x c e8 t)
  refine ⟨hI, ?_⟩
  have hl : stepL (F := Ideal) _ _ _ _ _ _ = col (fun r => runL (sBlk x (qrow (Blocks.qblk t) r)) (t.val % 8)) := hI.hl
  have ha : stepA (F := Ideal) _ _ _ _ _ _ _ _ _ = c2 (fun r d => runA (sBlk x (qrow (Blocks.qblk t) r)) (vBlk x d) (t.val % 8)) := hI.ha
  show outOf _ _ = _
  rw [ha, hl, h1, outOf_real _ _ (fun r => lastL_ne x (Blocks.qblk t) r)]
  congr 1
  funext r d
  exact last x (Blocks.qblk t) r d

/-- The state after every point, by induction on the point: a first key block starts afresh, a later one steps from
    the point before, which lies in the same query block. -/
theorem inv_at (e0 : m ((c.tc : Thread nD τ).loc main_arg0) = fun i => ((x.q (i 0) (i 1) : ℝ) : EReal))
    (e1 : m ((c.tc : Thread nD τ).loc main_arg1) = fun i => ((x.k (i 0) (i 1) : ℝ) : EReal))
    (e2 : m ((c.tc : Thread nD τ).loc main_arg2) = fun i => ((x.v (i 0) (i 1) : ℝ) : EReal))
    (e3 : m ((c.tc : Thread nD τ).loc main_arg3) = fun i => ((x.Wq (i 0) (i 1) : ℝ) : EReal))
    (e4 : m ((c.tc : Thread nD τ).loc main_arg4) = fun i => ((x.bq (i 0) : ℝ) : EReal))
    (e5 : m ((c.tc : Thread nD τ).loc main_arg5) = fun i => ((x.Wk (i 0) (i 1) : ℝ) : EReal))
    (e6 : m ((c.tc : Thread nD τ).loc main_arg6) = fun i => ((x.bk (i 0) : ℝ) : EReal))
    (e7 : m ((c.tc : Thread nD τ).loc main_arg7) = fun i => ((x.Wv (i 0) (i 1) : ℝ) : EReal))
    (e8 : m ((c.tc : Thread nD τ).loc main_arg8) = fun i => ((x.bv (i 0) : ℝ) : EReal)) : ∀ (n : ℕ) (h : n < cfg0.N),
    Inv x (Blocks.qblk ⟨n, h⟩) (n % 8) (outsAt0 m c n h) := by
  intro n
  induction n with
  | zero => intro h; exact pointA x m c e0 e1 e2 e3 e4 e5 e6 e7 e8 ⟨0, h⟩ rfl (by dsimp only; omega)
  | succ n ih =>
    intro h
    have hN : cfg0.N = 32 := N_0
    by_cases h0 : (n + 1) % 8 = 0
    · exact pointA x m c e0 e1 e2 e3 e4 e5 e6 e7 e8 ⟨n + 1, h⟩ h0 (by dsimp only; omega)
    · have hq : n / 8 = (n + 1) / 8 := by omega
      have hk : (n + 1) % 8 = n % 8 + 1 := by omega
      by_cases h1 : (n + 1) % 8 = 7
      · have h6 : n % 8 = 6 := by omega
        have ih' := ih (Nat.lt_of_succ_lt h)
        rw [h6] at ih'
        exact (pointC x m c e0 e1 e2 e3 e4 e5 e6 e7 e8 ⟨n + 1, h⟩ h0 h1 (Blocks.qblk ⟨n, Nat.lt_of_succ_lt h⟩) (Fin.ext hq) ih').1
      · exact pointB x m c e0 e1 e2 e3 e4 e5 e6 e7 e8 ⟨n + 1, h⟩ h0 h1 (n % 8) hk (Blocks.qblk ⟨n, Nat.lt_of_succ_lt h⟩) (Fin.ext hq)
          (ih (Nat.lt_of_succ_lt h))

/-- After the last key block of a query block the output's staging buffer holds the attention output of the query
    block's rows. -/
theorem out_at (e0 : m ((c.tc : Thread nD τ).loc main_arg0) = fun i => ((x.q (i 0) (i 1) : ℝ) : EReal))
    (e1 : m ((c.tc : Thread nD τ).loc main_arg1) = fun i => ((x.k (i 0) (i 1) : ℝ) : EReal))
    (e2 : m ((c.tc : Thread nD τ).loc main_arg2) = fun i => ((x.v (i 0) (i 1) : ℝ) : EReal))
    (e3 : m ((c.tc : Thread nD τ).loc main_arg3) = fun i => ((x.Wq (i 0) (i 1) : ℝ) : EReal))
    (e4 : m ((c.tc : Thread nD τ).loc main_arg4) = fun i => ((x.bq (i 0) : ℝ) : EReal))
    (e5 : m ((c.tc : Thread nD τ).loc main_arg5) = fun i => ((x.Wk (i 0) (i 1) : ℝ) : EReal))
    (e6 : m ((c.tc : Thread nD τ).loc main_arg6) = fun i => ((x.bk (i 0) : ℝ) : EReal))
    (e7 : m ((c.tc : Thread nD τ).loc main_arg7) = fun i => ((x.Wv (i 0) (i 1) : ℝ) : EReal))
    (e8 : m ((c.tc : Thread nD τ).loc main_arg8) = fun i => ((x.bv (i 0) : ℝ) : EReal)) (t : Fin cfg0.N) (h7 : t.val % 8 = 7) :
    (outsAt0 m c t.val t.isLt).1 = c2 (fun r d => x.out (qrow (Blocks.qblk t) r) d) := by
  have hN : cfg0.N = 32 := N_0
  have hlt : t.val - 1 < cfg0.N := Nat.lt_of_le_of_lt (Nat.sub_le _ _) t.isLt
  have ih := inv_at x m c e0 e1 e2 e3 e4 e5 e6 e7 e8 (t.val - 1) hlt
  have h6 : (t.val - 1) % 8 = 6 := by omega
  have hq : (t.val - 1) / 8 = t.val / 8 := by omega
  rw [h6] at ih
  exact (pointC x m c e0 e1 e2 e3 e4 e5 e6 e7 e8 t (by omega) h7 (Blocks.qblk ⟨t.val - 1, hlt⟩) (Fin.ext hq) ih).2

end Cert.KernelIdeal.Invariant

end
-- ==== Proof.Final.lean ====
/-
  From what the output's staging buffer holds after each query block's last key block to what the result array
  holds after the run.

  The grid is 4 × 8: point `t` works on query block `t / 8` and key block `t % 8`. The output window's block at
  point `t` is rows `1024 * (t / 8) … 1024 * (t / 8) + 1023` of the `[4096, 64]` result array, all 64 columns, and
  it is written back only at the points with `t % 8 = 7`, after the query block has met its last key block. If at
  each such point the staging buffer holds the attention output of the block's 1024 query rows, then what the point
  writes back is that block of the whole attention output read through the block's rectangle: row `r` of the block
  is row `1024 * (t / 8) + r` of the array, which is the query row `qrow (t / 8) r`. Row `i` of the array lies in
  the block of the point `8 * (i / 1024) + 7`, which writes back, so the four written blocks cover the array, and
  the array ends holding the attention output everywhere.
-/
import proofs.«153045_j22763326669315_2_alg».proof.Proof.Gen.KernelIdeal.Value
import proofs.«153045_j22763326669315_2_alg».proof.Proof.RealBlocks
import proofs.«153045_j22763326669315_2_alg».proof.Proof.Spec
import Idealize.ShloMosaic.Lib.Pipeline.Value

noncomputable section

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The attention output as an array of extended reals. -/
def attnOut (x : Attn.Inputs) : S4096x64.Idx → EReal := fun i => ((x.out (i 0) (i 1) : ℝ) : EReal)

/-- The array at the index whose row is row `r` of query block `b`. -/
theorem attnOut_at (x : Attn.Inputs) (i : S4096x64.Idx) (b : Fin 4) (r : Fin 1024) (d : Fin 64)
    (h0 : (i 0).val = 1024 * b.val + r.val) (h1 : (i 1).val = d.val) :
    attnOut x i = ((x.out (Attn.Inputs.qrow b r) d : ℝ) : EReal) := by
  have e0 : i 0 = Attn.Inputs.qrow b r := Fin.ext h0
  have e1 : i 1 = d := Fin.ext h1
  unfold attnOut
  rw [e0, e1]

/-- The output window's block index at point `t`, decided over the grid: the query block `t / 8`, column block 0. -/
theorem block_index : ∀ t : Fin cfg0.N, win0_9.index t (0 : Fin 2) = t.val / 8 ∧ win0_9.index t (1 : Fin 2) = 0 :=
  (by decide +kernel : ∀ t : Fin grid0.N, win0_9.index t (0 : Fin 2) = t.val / 8 ∧ win0_9.index t (1 : Fin 2) = 0)

/-- What a point that writes back writes is its block of the attention output. -/
theorem flushed_eq (x : Attn.Inputs) (c : Dev nD)
    (hout : ∀ (t : Fin cfg0.N) (h7 : t.val % 8 = 7) (hq : t.val / 8 < 4),
      (outsAt0 m c t.val t.isLt).1
        = Cert.KernelIdeal.StepValue.c2 (fun r d => x.out (Attn.Inputs.qrow ⟨t.val / 8, hq⟩ r) d))
    (t : Fin cfg0.N) (hf : (cfg0.win 9).flush t = true) :
    (dats m 0 c).flushed 9 t = ((cfg0.win 9).blk t).view.read (Elt Ideal) (attnOut x) := by
  have hN : t.val < 32 := lt_of_lt_of_eq t.isLt (show cfg0.N = 32 from N_0)
  have hq : t.val / 8 < 4 := by omega
  rw [Value.flushed9, hout t ((flush0_9 t).mp hf) hq]
  obtain ⟨e0, e1⟩ := block_index t
  funext y
  have hy0 : (y 0).val < 1024 := (y 0).isLt
  have hy1 : (y 1).val < 64 := (y 1).isLt
  refine (attnOut_at x (((cfg0.win 9).blk t).view.emb y) ⟨t.val / 8, hq⟩ ⟨(y 0).val, hy0⟩ ⟨(y 1).val, hy1⟩ ?_ ?_).symm
  · show win0_9.index t (0 : Fin 2) * 1024 + 1 * (y 0).val = 1024 * (t.val / 8) + (y 0).val
    omega
  · show win0_9.index t (1 : Fin 2) * 64 + 1 * (y 1).val = (y 1).val
    omega

/-- An index of the array is in point `t`'s block iff each coordinate is in the block's range on its axis. -/
theorem mem_blk (t : Fin cfg0.N) (i : S4096x64.Idx) :
    i ∈ ((cfg0.win 9).blk t).view.set ↔ ∀ a : Fin 2, win0_9.index t a * S1024x64.size a ≤ (i a).val
      ∧ (i a).val < win0_9.index t a * S1024x64.size a + S1024x64.size a := by
  show i ∈ ((View.whole main_v16).slice (win0_9.rect t)).set ↔ _
  rw [View.set_slice_whole, Rect.mem_set_unit]
  exact Iff.rfl

/-- Every index of the array is in the block of a point that writes back: the last point of its query block. -/
theorem cover (i : S4096x64.Idx) :
    ∃ t : Fin cfg0.N, (cfg0.win 9).flush t = true ∧ i ∈ ((cfg0.win 9).blk t).view.set := by
  have hi0 : (i 0).val < 4096 := (i 0).isLt
  have hi1 : (i 1).val < 64 := (i 1).isLt
  have hN : cfg0.N = 32 := N_0
  have hlt : 8 * ((i 0).val / 1024) + 7 < cfg0.N := by omega
  obtain ⟨e0, e1⟩ := block_index ⟨8 * ((i 0).val / 1024) + 7, hlt⟩
  have e0' : win0_9.index ⟨8 * ((i 0).val / 1024) + 7, hlt⟩ (0 : Fin 2) = (8 * ((i 0).val / 1024) + 7) / 8 := e0
  refine ⟨⟨8 * ((i 0).val / 1024) + 7, hlt⟩, (flush0_9 _).mpr (by show (8 * ((i 0).val / 1024) + 7) % 8 = 7; omega), ?_⟩
  rw [mem_blk]
  intro a
  match a with
  | ⟨0, _⟩ =>
    show win0_9.index ⟨8 * ((i 0).val / 1024) + 7, hlt⟩ (0 : Fin 2) * 1024 ≤ (i 0).val
      ∧ (i 0).val < win0_9.index ⟨8 * ((i 0).val / 1024) + 7, hlt⟩ (0 : Fin 2) * 1024 + 1024
    omega
  | ⟨1, _⟩ =>
    show win0_9.index ⟨8 * ((i 0).val / 1024) + 7, hlt⟩ (1 : Fin 2) * 64 ≤ (i 1).val
      ∧ (i 1).val < win0_9.index ⟨8 * ((i 0).val / 1024) + 7, hlt⟩ (1 : Fin 2) * 64 + 64
    omega

/-- The result array after the run holds the attention output. -/
theorem final (x : Attn.Inputs) (c : Dev nD)
    (hout : ∀ (t : Fin cfg0.N) (h7 : t.val % 8 = 7) (hq : t.val / 8 < 4),
      (outsAt0 m c t.val t.isLt).1
        = Cert.KernelIdeal.StepValue.c2 (fun r d => x.out (Attn.Inputs.qrow ⟨t.val / 8, hq⟩ r) d)) :
    (dats m 0 c).arrAt 9 cfg0.N = fun i => ((x.out (i 0) (i 1) : ℝ) : EReal) :=
  (dats m 0 c).arrAt_eq_of_cover 9 (attnOut x) (fun t hf => flushed_eq m x c hout t hf) cover

/-- The kernel's run with its result array read: the attention output of the real arrays chosen per device, the
    arguments unchanged. -/
theorem run (x : Dev nD → Attn.Inputs)
    (hout : ∀ (c : Dev nD) (t : Fin cfg0.N) (h7 : t.val % 8 = 7) (hq : t.val / 8 < 4),
      (outsAt0 m c t.val t.isLt).1
        = Cert.KernelIdeal.StepValue.c2 (fun r d => (x c).out (Attn.Inputs.qrow ⟨t.val / 8, hq⟩ r) d)) :
    θ_run defs (onTc (τ := τ) (main (F := Ideal))) ⟨m, fun _ => 0, ρ⟩ fun r => ∀ c : Dev nD,
      r.2.mem ((c : Thread nD τ).loc main_v16) = (fun i => (((x c).out (i 0) (i 1) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m (x c) c (hout c)), (h c).2⟩) (Value.run_blocks m ρ)

end Cert.KernelIdeal.Final

end
-- ==== Proof.RefProj.lean ====
/-
  The reference's first half read entry by entry: the three linear projections and the scaled scores.

  Each argument array is assumed to hold, entry by entry, the coercion of a real array (the fields of
  `Attn.Inputs`). Then every intermediate array of the reference, read at a symbolic index, is the coercion of
  the matching quantity of the specification:

    * the weight matrix is transposed before the product, so the contraction of the query row `i` against
      column `a` of the transposed weight pairs `q i c` with `Wq a c`: the product at `(i, a)` is
      `∑ c, q i c * Wq a c`, and adding the bias (broadcast along the rows in two steps) gives `Qp i a`;
      the key and value projections likewise;
    * the score matrix contracts `Qp i ·` against the transposed key projection, i.e. against `Kp j ·`,
      and divides by the constant whose pattern denotes the real number 8: the entry at `(i, j)` is `score i j`.

  Sums and products of coercions are coercions of real sums and products; the division by 8 is the real
  division because 8 is a nonzero real.
-/
import proofs.«153045_j22763326669315_2_alg».proof.Proof.Gen.ReferenceIdeal.Read
import proofs.«153045_j22763326669315_2_alg».proof.Proof.Spec
import proofs.«153045_j22763326669315_2_alg».proof.Proof.LibFinite

noncomputable section

namespace Cert.ReferenceIdeal.RefValue

open Cert.ReferenceIdeal Cert.ReferenceIdeal.Read Idealize.ShloMosaic Idealize.ShloMosaic.ValueIdx

/-! ## The three constants -/

/-- The pattern `0x41000000` denotes the real number 8. -/
theorem ofBits_eight : Ideal.ofBits .f32 0x41000000#32 = ((8 : ℝ) : EReal) := by
  simp [Ideal.ofBits, Ideal.ieee, -EReal.coe_mul]; norm_num

/-- The pattern `0xFF800000` denotes `-∞`. -/
theorem ofBits_neg_inf : Ideal.ofBits .f32 0xFF800000#32 = ⊥ := by
  simp [Ideal.ofBits, Ideal.ieee]

/-- The zero pattern denotes 0. -/
theorem ofBits_zero : Ideal.ofBits .f32 0x00000000#32 = 0 := by
  simp [Ideal.ofBits, Ideal.ieee]

variable (x : Attn.Inputs)

/-! ## The query projection -/

/-- The transposed query weight at `(c, a)` is `Wq a c`. -/
theorem v0_at (x3 : (⟨S64x128, .f32⟩ : BufTy).Contents (Elt Ideal))
    (h3 : ∀ a c, x3 (ix2 a c) = ((x.Wq a c : ℝ) : EReal)) (c : Fin 128) (a : Fin 64) :
    val_main_v0 (F := Ideal) x3 (ix2 c a) = ((x.Wq a c : ℝ) : EReal) := by
  rw [val_main_v0_apply, ← h3 a c]
  exact congrArg x3 (funext fun d => Fin.ext (by match d with | ⟨0, _⟩ => rfl | ⟨1, _⟩ => rfl))

/-- The product of the queries with the transposed weight at `(i, a)` is `∑ c, q i c * Wq a c`. -/
theorem v1_at (x0 : (⟨S4096x128, .f32⟩ : BufTy).Contents (Elt Ideal)) (x3 : (⟨S64x128, .f32⟩ : BufTy).Contents (Elt Ideal))
    (h0 : ∀ i c, x0 (ix2 i c) = ((x.q i c : ℝ) : EReal))
    (h3 : ∀ a c, x3 (ix2 a c) = ((x.Wq a c : ℝ) : EReal)) (i : Fin 4096) (a : Fin 64) :
    val_main_v1 (F := Ideal) x0 x3 (ix2 i a) = ((∑ c, x.q i c * x.Wq a c : ℝ) : EReal) := by
  rw [val_main_v1_apply, LibFinite.coe_finset_sum]
  refine Finset.sum_congr rfl fun k _ => ?_
  rw [EReal.coe_mul, ← h0 i k, ← v0_at x x3 h3 k a]
  congr 2 <;> exact funext fun d => Fin.ext (by match d with | ⟨0, _⟩ => rfl | ⟨1, _⟩ => rfl)

/-- The query bias as a one-row matrix. -/
theorem v2_at (x4 : (⟨S64, .f32⟩ : BufTy).Contents (Elt Ideal))
    (h4 : ∀ a, x4 (ix1 a) = ((x.bq a : ℝ) : EReal)) (z : Fin 1) (a : Fin 64) :
    val_main_v2 (F := Ideal) x4 (ix2 z a) = ((x.bq a : ℝ) : EReal) := by
  rw [val_main_v2_apply, ← h4 a]
  exact congrArg x4 (funext fun d => Fin.ext (by match d with | ⟨0, _⟩ => rfl))

/-- The query bias copied down the 4096 rows. -/
theorem v3_at (x4 : (⟨S64, .f32⟩ : BufTy).Contents (Elt Ideal))
    (h4 : ∀ a, x4 (ix1 a) = ((x.bq a : ℝ) : EReal)) (i : Fin 4096) (a : Fin 64) :
    val_main_v3 (F := Ideal) x4 (ix2 i a) = ((x.bq a : ℝ) : EReal) := by
  rw [val_main_v3_apply, ← v2_at x x4 h4 0 a]
  exact congrArg (val_main_v2 (F := Ideal) x4) (funext fun d => Fin.ext (by match d with | ⟨0, _⟩ => rfl | ⟨1, _⟩ => rfl))

/-- The projected queries. -/
theorem v4_at (x0 : (⟨S4096x128, .f32⟩ : BufTy).Contents (Elt Ideal)) (x3 : (⟨S64x128, .f32⟩ : BufTy).Contents (Elt Ideal))
    (x4 : (⟨S64, .f32⟩ : BufTy).Contents (Elt Ideal))
    (h0 : ∀ i c, x0 (ix2 i c) = ((x.q i c : ℝ) : EReal))
    (h3 : ∀ a c, x3 (ix2 a c) = ((x.Wq a c : ℝ) : EReal))
    (h4 : ∀ a, x4 (ix1 a) = ((x.bq a : ℝ) : EReal)) (i : Fin 4096) (a : Fin 64) :
    val_main_v4 (F := Ideal) x0 x3 x4 (ix2 i a) = ((x.Qp i a : ℝ) : EReal) := by
  rw [val_main_v4_apply, Ideal.addf_def, v1_at x x0 x3 h0 h3, v3_at x x4 h4, ← EReal.coe_add]
  rfl

/-! ## The key projection -/

/-- The transposed key weight at `(c, a)` is `Wk a c`. -/
theorem v5_at (x5 : (⟨S64x128, .f32⟩ : BufTy).Contents (Elt Ideal))
    (h5 : ∀ a c, x5 (ix2 a c) = ((x.Wk a c : ℝ) : EReal)) (c : Fin 128) (a : Fin 64) :
    val_main_v5 (F := Ideal) x5 (ix2 c a) = ((x.Wk a c : ℝ) : EReal) := by
  rw [val_main_v5_apply, ← h5 a c]
  exact congrArg x5 (funext fun d => Fin.ext (by match d with | ⟨0, _⟩ => rfl | ⟨1, _⟩ => rfl))

/-- The product of the keys with the transposed weight at `(j, a)` is `∑ c, k j c * Wk a c`. -/
theorem v6_at (x1 : (⟨S8192x128, .f32⟩ : BufTy).Contents (Elt Ideal)) (x5 : (⟨S64x128, .f32⟩ : BufTy).Contents (Elt Ideal))
    (h1 : ∀ j c, x1 (ix2 j c) = ((x.k j c : ℝ) : EReal))
    (h5 : ∀ a c, x5 (ix2 a c) = ((x.Wk a c : ℝ) : EReal)) (j : Fin 8192) (a : Fin 64) :
    val_main_v6 (F := Ideal) x1 x5 (ix2 j a) = ((∑ c, x.k j c * x.Wk a c : ℝ) : EReal) := by
  rw [val_main_v6_apply, LibFinite.coe_finset_sum]
  refine Finset.sum_congr rfl fun c _ => ?_
  rw [EReal.coe_mul, ← h1 j c, ← v5_at x x5 h5 c a]
  congr 2 <;> exact funext fun d => Fin.ext (by match d with | ⟨0, _⟩ => rfl | ⟨1, _⟩ => rfl)

/-- The key bias as a one-row matrix. -/
theorem v7_at (x6 : (⟨S64, .f32⟩ : BufTy).Contents (Elt Ideal))
    (h6 : ∀ a, x6 (ix1 a) = ((x.bk a : ℝ) : EReal)) (z : Fin 1) (a : Fin 64) :
    val_main_v7 (F := Ideal) x6 (ix2 z a) = ((x.bk a : ℝ) : EReal) := by
  rw [val_main_v7_apply, ← h6 a]
  exact congrArg x6 (funext fun d => Fin.ext (by match d with | ⟨0, _⟩ => rfl))

/-- The key bias copied down the 8192 rows. -/
theorem v8_at (x6 : (⟨S64, .f32⟩ : BufTy).Contents (Elt Ideal))
    (h6 : ∀ a, x6 (ix1 a) = ((x.bk a : ℝ) : EReal)) (j : Fin 8192) (a : Fin 64) :
    val_main_v8 (F := Ideal) x6 (ix2 j a) = ((x.bk a : ℝ) : EReal) := by
  rw [val_main_v8_apply, ← v7_at x x6 h6 0 a]
  exact congrArg (val_main_v7 (F := Ideal) x6) (funext fun d => Fin.ext (by match d with | ⟨0, _⟩ => rfl | ⟨1, _⟩ => rfl))

/-- The projected keys. -/
theorem v9_at (x1 : (⟨S8192x128, .f32⟩ : BufTy).Contents (Elt Ideal)) (x5 : (⟨S64x128, .f32⟩ : BufTy).Contents (Elt Ideal))
    (x6 : (⟨S64, .f32⟩ : BufTy).Contents (Elt Ideal))
    (h1 : ∀ j c, x1 (ix2 j c) = ((x.k j c : ℝ) : EReal))
    (h5 : ∀ a c, x5 (ix2 a c) = ((x.Wk a c : ℝ) : EReal))
    (h6 : ∀ a, x6 (ix1 a) = ((x.bk a : ℝ) : EReal)) (j : Fin 8192) (a : Fin 64) :
    val_main_v9 (F := Ideal) x1 x5 x6 (ix2 j a) = ((x.Kp j a : ℝ) : EReal) := by
  rw [val_main_v9_apply, Ideal.addf_def, v6_at x x1 x5 h1 h5, v8_at x x6 h6, ← EReal.coe_add]
  rfl

/-! ## The value projection -/

/-- The transposed value weight at `(c, d)` is `Wv d c`. -/
theorem v10_at (x7 : (⟨S64x64, .f32⟩ : BufTy).Contents (Elt Ideal))
    (h7 : ∀ d c, x7 (ix2 d c) = ((x.Wv d c : ℝ) : EReal)) (c : Fin 64) (d : Fin 64) :
    val_main_v10 (F := Ideal) x7 (ix2 c d) = ((x.Wv d c : ℝ) : EReal) := by
  rw [val_main_v10_apply, ← h7 d c]
  exact congrArg x7 (funext fun e => Fin.ext (by match e with | ⟨0, _⟩ => rfl | ⟨1, _⟩ => rfl))

/-- The product of the values with the transposed weight at `(j, d)` is `∑ c, v j c * Wv d c`. -/
theorem v11_at (x2 : (⟨S8192x64, .f32⟩ : BufTy).Contents (Elt Ideal)) (x7 : (⟨S64x64, .f32⟩ : BufTy).Contents (Elt Ideal))
    (h2 : ∀ j c, x2 (ix2 j c) = ((x.v j c : ℝ) : EReal))
    (h7 : ∀ d c, x7 (ix2 d c) = ((x.Wv d c : ℝ) : EReal)) (j : Fin 8192) (d : Fin 64) :
    val_main_v11 (F := Ideal) x2 x7 (ix2 j d) = ((∑ c, x.v j c * x.Wv d c : ℝ) : EReal) := by
  rw [val_main_v11_apply, LibFinite.coe_finset_sum]
  refine Finset.sum_congr rfl fun c _ => ?_
  rw [EReal.coe_mul, ← h2 j c, ← v10_at x x7 h7 c d]
  congr 2 <;> exact funext fun e => Fin.ext (by match e with | ⟨0, _⟩ => rfl | ⟨1, _⟩ => rfl)

/-- The value bias as a one-row matrix. -/
theorem v12_at (x8 : (⟨S64, .f32⟩ : BufTy).Contents (Elt Ideal))
    (h8 : ∀ d, x8 (ix1 d) = ((x.bv d : ℝ) : EReal)) (z : Fin 1) (d : Fin 64) :
    val_main_v12 (F := Ideal) x8 (ix2 z d) = ((x.bv d : ℝ) : EReal) := by
  rw [val_main_v12_apply, ← h8 d]
  exact congrArg x8 (funext fun e => Fin.ext (by match e with | ⟨0, _⟩ => rfl))

/-- The value bias copied down the 8192 rows. -/
theorem v13_at (x8 : (⟨S64, .f32⟩ : BufTy).Contents (Elt Ideal))
    (h8 : ∀ d, x8 (ix1 d) = ((x.bv d : ℝ) : EReal)) (j : Fin 8192) (d : Fin 64) :
    val_main_v13 (F := Ideal) x8 (ix2 j d) = ((x.bv d : ℝ) : EReal) := by
  rw [val_main_v13_apply, ← v12_at x x8 h8 0 d]
  exact congrArg (val_main_v12 (F := Ideal) x8) (funext fun e => Fin.ext (by match e with | ⟨0, _⟩ => rfl | ⟨1, _⟩ => rfl))

/-- The projected values. -/
theorem v14_at (x2 : (⟨S8192x64, .f32⟩ : BufTy).Contents (Elt Ideal)) (x7 : (⟨S64x64, .f32⟩ : BufTy).Contents (Elt Ideal))
    (x8 : (⟨S64, .f32⟩ : BufTy).Contents (Elt Ideal))
    (h2 : ∀ j c, x2 (ix2 j c) = ((x.v j c : ℝ) : EReal))
    (h7 : ∀ d c, x7 (ix2 d c) = ((x.Wv d c : ℝ) : EReal))
    (h8 : ∀ d, x8 (ix1 d) = ((x.bv d : ℝ) : EReal)) (j : Fin 8192) (d : Fin 64) :
    val_main_v14 (F := Ideal) x2 x7 x8 (ix2 j d) = ((x.Vp j d : ℝ) : EReal) := by
  rw [val_main_v14_apply, Ideal.addf_def, v11_at x x2 x7 h2 h7, v13_at x x8 h8, ← EReal.coe_add]
  rfl

end Cert.ReferenceIdeal.RefValue

end
-- ==== Proof.RefSoftmax.lean ====
/-
  The reference's second half read entry by entry: the scores, the row maximum, the shifted exponentials,
  the row sums and the normalised weights.

  The score matrix contracts the projected query row `i` against the transposed key projection, that is against
  the projected key row `j`, and divides by the constant 8. The maximum over a row is a fold of `max` from `-∞`
  over the 8192 entries of the row; every entry is the coercion of a real score, so the fold is the coercion of
  the largest score: it is bounded by it (every entry is, and so is `-∞`) and it is at least the entry that attains
  it. The second `max` against a row of `-∞` changes nothing. The two broadcasts copy the row maximum (and later
  the row sum) along the row. The exponential of a real difference is the real exponential; the sum over the row
  from the initial value 0 is the coercion of the real sum; the row sum is positive, hence nonzero, so the last
  division is the real division.
-/
import proofs.«153045_j22763326669315_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx

/-- The nine argument arrays hold, entry by entry, the coercions of the real arrays of `x`. -/
structure Args (x : Attn.Inputs) (a0 : (⟨S4096x128, .f32⟩ : BufTy).Contents (Elt Ideal)) (a1 : (⟨S8192x128, .f32⟩ : BufTy).Contents (Elt Ideal)) (a2 : (⟨S8192x64, .f32⟩ : BufTy).Contents (Elt Ideal)) (a3 : (⟨S64x128, .f32⟩ : BufTy).Contents (Elt Ideal)) (a4 : (⟨S64, .f32⟩ : BufTy).Contents (Elt Ideal)) (a5 : (⟨S64x128, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal)) : Prop where
  q : ∀ i c, a0 (ix2 i c) = ((x.q i c : ℝ) : EReal)
  k : ∀ j c, a1 (ix2 j c) = ((x.k j c : ℝ) : EReal)
  v : ∀ j c, a2 (ix2 j c) = ((x.v j c : ℝ) : EReal)
  Wq : ∀ a c, a3 (ix2 a c) = ((x.Wq a c : ℝ) : EReal)
  bq : ∀ a, a4 (ix1 a) = ((x.bq a : ℝ) : EReal)
  Wk : ∀ a c, a5 (ix2 a c) = ((x.Wk a c : ℝ) : EReal)
  bk : ∀ a, a6 (ix1 a) = ((x.bk a : ℝ) : EReal)
  Wv : ∀ d c, a7 (ix2 d c) = ((x.Wv d c : ℝ) : EReal)
  bv : ∀ d, a8 (ix1 d) = ((x.bv d : ℝ) : EReal)

variable {x : Attn.Inputs} {a0 : (⟨S4096x128, .f32⟩ : BufTy).Contents (Elt Ideal)} {a1 : (⟨S8192x128, .f32⟩ : BufTy).Contents (Elt Ideal)}
  {a2 : (⟨S8192x64, .f32⟩ : BufTy).Contents (Elt Ideal)} {a3 : (⟨S64x128, .f32⟩ : BufTy).Contents (Elt Ideal)}
  {a4 : (⟨S64, .f32⟩ : BufTy).Contents (Elt Ideal)} {a5 : (⟨S64x128, .f32⟩ : BufTy).Contents (Elt Ideal)}
  {a6 : (⟨S64, .f32⟩ : BufTy).Contents (Elt Ideal)} {a7 : (⟨S64x64, .f32⟩ : BufTy).Contents (Elt Ideal)}
  {a8 : (⟨S64, .f32⟩ : BufTy).Contents (Elt Ideal)}

/-! ## The scores -/

/-- The transposed key projection at `(a, j)` is `Kp j a`. -/
theorem v15_at (H : Args x a0 a1 a2 a3 a4 a5 a6 a7 a8) (a : Fin 64) (j : Fin 8192) :
    val_main_v15 (F := Ideal) a1 a5 a6 (ix2 a j) = ((x.Kp j a : ℝ) : EReal) := by
  rw [val_main_v15_apply, ← v9_at x a1 a5 a6 H.k H.Wk H.bk j a]
  exact congrArg (val_main_v9 (F := Ideal) a1 a5 a6) (funext fun d => Fin.ext (by match d with | ⟨0, _⟩ => rfl | ⟨1, _⟩ => rfl))

/-- The unscaled score at `(i, j)`: the inner product of the two projected rows. -/
theorem v16_at (H : Args x a0 a1 a2 a3 a4 a5 a6 a7 a8) (i : Fin 4096) (j : Fin 8192) :
    val_main_v16 (F := Ideal) a0 a1 a3 a4 a5 a6 (ix2 i j) = ((∑ a, x.Qp i a * x.Kp j a : ℝ) : EReal) := by
  rw [val_main_v16_apply, LibFinite.coe_finset_sum]
  refine Finset.sum_congr rfl fun a _ => ?_
  rw [EReal.coe_mul, ← v4_at x a0 a3 a4 H.q H.Wq H.bq i a, ← v15_at H a j]
  congr 2 <;> exact (funext fun d => Fin.ext (by match d with | ⟨0, _⟩ => rfl | ⟨1, _⟩ => rfl))

/-- The divisor is 8 everywhere. -/
theorem v17_at (i : S4096x8192.Idx) : val_main_v17 (F := Ideal) i = ((8 : ℝ) : EReal) := by
  rw [val_main_v17_apply, val_main_cst_apply, Ideal.ofBits_def, ofBits_eight]

/-- The scaled score. -/
theorem v18_at (H : Args x a0 a1 a2 a3 a4 a5 a6 a7 a8) (i : Fin 4096) (j : Fin 8192) :
    val_main_v18 (F := Ideal) a0 a1 a3 a4 a5 a6 (ix2 i j) = ((x.score i j : ℝ) : EReal) := by
  rw [val_main_v18_apply, Ideal.hostDivf_def, v16_at H i j, v17_at,
    LibFinite.div_coe_coe _ (by norm_num : (8 : ℝ) ≠ 0)]
  rfl

/-! ## The row maximum -/

/-- The fold of `max` from `-∞` over the scores of row `i` is the largest of them: it is below it because
    every score is, and above it because one of the scores attains it. -/
theorem fold_max_score (x : Attn.Inputs) (i : Fin 4096) :
    (Finset.univ : Finset (Fin 8192)).fold (FloatOps.maximumf (F := Ideal) (φ := .f32)) (⊥ : EReal)
      (fun j => ((x.score i j : ℝ) : EReal)) = ((x.rowMax i : ℝ) : EReal) := by
  show (Finset.univ : Finset (Fin 8192)).fold max (⊥ : EReal) (fun j => ((x.score i j : ℝ) : EReal)) = _
  apply le_antisymm
  · rw [Finset.fold_max_le]
    exact ⟨bot_le, fun j _ => EReal.coe_le_coe_iff.mpr (x.score_le_rowMax i j)⟩
  · obtain ⟨j, hj⟩ := x.rowMax_attained i
    rw [Finset.le_fold_max]
    exact Or.inr ⟨j, Finset.mem_univ j, by rw [hj]⟩

/-- The reduction with `max` over the keys, at row `i`. -/
theorem v19_at (H : Args x a0 a1 a2 a3 a4 a5 a6 a7 a8) (i : Fin 4096) :
    val_main_v19 (F := Ideal) a0 a1 a3 a4 a5 a6 (ix1 i) = ((x.rowMax i : ℝ) : EReal) := by
  have hR : S4096x8192.Reduces [1] S4096 := by decide
  unfold val_main_v19
  rw [Host.reduce_eq_fold_single _ _ _ reducesTo_S4096x8192_S4096_d1 hR h_S_ (ix1 i)]
  have hf : (val_main_v18 (F := Ideal) a0 a1 a3 a4 a5 a6 ∘ hR.lift (ix1 i)) = fun j : Fin 8192 => ((x.score i j : ℝ) : EReal) :=
    funext fun j => by
      show val_main_v18 (F := Ideal) a0 a1 a3 a4 a5 a6 (hR.lift (ix1 i) j) = _
      rw [← v18_at H i j]
      exact congrArg (val_main_v18 (F := Ideal) a0 a1 a3 a4 a5 a6) (funext fun d => Fin.ext (by match d with | ⟨0, _⟩ => rfl | ⟨1, _⟩ => rfl))
  rw [hf, val_main_cst_0_apply, Ideal.ofBits_def, ofBits_neg_inf]
  exact fold_max_score x i

/-- The row of `-∞`. -/
theorem v20_at (i : S4096.Idx) : val_main_v20 (F := Ideal) i = ⊥ := by
  rw [val_main_v20_apply, val_main_cst_1_apply, Ideal.ofBits_def, ofBits_neg_inf]

/-- The maximum against `-∞` is still the row maximum. -/
theorem v21_at (H : Args x a0 a1 a2 a3 a4 a5 a6 a7 a8) (i : Fin 4096) :
    val_main_v21 (F := Ideal) a0 a1 a3 a4 a5 a6 (ix1 i) = ((x.rowMax i : ℝ) : EReal) := by
  rw [val_main_v21_apply, Ideal.maximumf_def, v20_at, v19_at H i]
  exact max_eq_right bot_le

/-- The row maximum as a column. -/
theorem v22_at (H : Args x a0 a1 a2 a3 a4 a5 a6 a7 a8) (i : Fin 4096) (z : Fin 1) :
    val_main_v22 (F := Ideal) a0 a1 a3 a4 a5 a6 (ix2 i z) = ((x.rowMax i : ℝ) : EReal) := by
  rw [val_main_v22_apply, ← v21_at H i]
  exact congrArg (val_main_v21 (F := Ideal) a0 a1 a3 a4 a5 a6) (funext fun d => Fin.ext (by match d with | ⟨0, _⟩ => rfl))

/-- The row maximum copied along the row. -/
theorem v23_at (H : Args x a0 a1 a2 a3 a4 a5 a6 a7 a8) (i : Fin 4096) (j : Fin 8192) :
    val_main_v23 (F := Ideal) a0 a1 a3 a4 a5 a6 (ix2 i j) = ((x.rowMax i : ℝ) : EReal) := by
  rw [val_main_v23_apply, ← v22_at H i 0]
  exact congrArg (val_main_v22 (F := Ideal) a0 a1 a3 a4 a5 a6) (funext fun d => Fin.ext (by match d with | ⟨0, _⟩ => rfl | ⟨1, _⟩ => rfl))

/-! ## The shifted exponentials and their row sums -/

/-- The score shifted by the row maximum. -/
theorem v24_at (H : Args x a0 a1 a2 a3 a4 a5 a6 a7 a8) (i : Fin 4096) (j : Fin 8192) :
    val_main_v24 (F := Ideal) a0 a1 a3 a4 a5 a6 (ix2 i j) = ((x.score i j - x.rowMax i : ℝ) : EReal) := by
  rw [val_main_v24_apply, Ideal.subf_def, v18_at H i j, v23_at H i j, ← EReal.coe_sub]

/-- The shifted exponential. -/
theorem v25_at (H : Args x a0 a1 a2 a3 a4 a5 a6 a7 a8) (i : Fin 4096) (j : Fin 8192) :
    val_main_v25 (F := Ideal) a0 a1 a3 a4 a5 a6 (ix2 i j) = ((x.weight i j : ℝ) : EReal) := by
  rw [val_main_v25_apply, Ideal.hostUnary_exp_def, v24_at H i j, Ideal.exp_coe]
  rfl

/-- The row sum of the shifted exponentials. -/
theorem v26_at (H : Args x a0 a1 a2 a3 a4 a5 a6 a7 a8) (i : Fin 4096) :
    val_main_v26 (F := Ideal) a0 a1 a3 a4 a5 a6 (ix1 i) = ((x.denom i : ℝ) : EReal) := by
  rw [val_main_v26_apply, val_main_cst_2_apply, Ideal.ofBits_def, ofBits_zero, zero_add]
  show _ = ((∑ j, x.weight i j : ℝ) : EReal)
  rw [LibFinite.coe_finset_sum]
  refine Finset.sum_congr rfl fun j _ => ?_
  rw [← v25_at H i j]
  exact congrArg (val_main_v25 (F := Ideal) a0 a1 a3 a4 a5 a6) (funext fun d => Fin.ext (by match d with | ⟨0, _⟩ => rfl | ⟨1, _⟩ => rfl))

/-- The row sum as a column. -/
theorem v27_at (H : Args x a0 a1 a2 a3 a4 a5 a6 a7 a8) (i : Fin 4096) (z : Fin 1) :
    val_main_v27 (F := Ideal) a0 a1 a3 a4 a5 a6 (ix2 i z) = ((x.denom i : ℝ) : EReal) := by
  rw [val_main_v27_apply, ← v26_at H i]
  exact congrArg (val_main_v26 (F := Ideal) a0 a1 a3 a4 a5 a6) (funext fun d => Fin.ext (by match d with | ⟨0, _⟩ => rfl))

/-- The row sum copied along the row. -/
theorem v28_at (H : Args x a0 a1 a2 a3 a4 a5 a6 a7 a8) (i : Fin 4096) (j : Fin 8192) :
    val_main_v28 (F := Ideal) a0 a1 a3 a4 a5 a6 (ix2 i j) = ((x.denom i : ℝ) : EReal) := by
  rw [val_main_v28_apply, ← v27_at H i 0]
  exact congrArg (val_main_v27 (F := Ideal) a0 a1 a3 a4 a5 a6) (funext fun d => Fin.ext (by match d with | ⟨0, _⟩ => rfl | ⟨1, _⟩ => rfl))

/-- The normalised weight. -/
theorem v29_at (H : Args x a0 a1 a2 a3 a4 a5 a6 a7 a8) (i : Fin 4096) (j : Fin 8192) :
    val_main_v29 (F := Ideal) a0 a1 a3 a4 a5 a6 (ix2 i j) = ((x.weight i j / x.denom i : ℝ) : EReal) := by
  rw [val_main_v29_apply, Ideal.hostDivf_def, v25_at H i j, v28_at H i j,
    LibFinite.div_coe_coe _ (x.denom_pos i).ne']

end Cert.ReferenceIdeal.RefValue

end
-- ==== Proof.RefValue.lean ====
/-
  The reference's result, entry by entry, is the attention output of the specification.

  The last product contracts the normalised weights of row `i` against the projected values: its entry at
  `(i, d)` is `∑ j, weight i j / denom i * Vp j d`, the coercion of the real sum because every factor is the
  coercion of a real number. That is `out i d`. The statement is given three ways: at a pair of coordinates, as an
  equation of whole arrays, and about the composed term the reference's run leaves in its result buffer.
-/
import proofs.«153045_j22763326669315_2_alg».proof.Proof.RefSoftmax

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

variable {x : Attn.Inputs} {a0 : (⟨S4096x128, .f32⟩ : BufTy).Contents (Elt Ideal)} {a1 : (⟨S8192x128, .f32⟩ : BufTy).Contents (Elt Ideal)}
  {a2 : (⟨S8192x64, .f32⟩ : BufTy).Contents (Elt Ideal)} {a3 : (⟨S64x128, .f32⟩ : BufTy).Contents (Elt Ideal)}
  {a4 : (⟨S64, .f32⟩ : BufTy).Contents (Elt Ideal)} {a5 : (⟨S64x128, .f32⟩ : BufTy).Contents (Elt Ideal)}
  {a6 : (⟨S64, .f32⟩ : BufTy).Contents (Elt Ideal)} {a7 : (⟨S64x64, .f32⟩ : BufTy).Contents (Elt Ideal)}
  {a8 : (⟨S64, .f32⟩ : BufTy).Contents (Elt Ideal)}

/-- The weighted average of the projected values at `(i, d)`. -/
theorem v30_at (H : Args x a0 a1 a2 a3 a4 a5 a6 a7 a8) (i : Fin 4096) (d : Fin 64) :
    val_main_v30 (F := Ideal) a0 a1 a2 a3 a4 a5 a6 a7 a8 (ix2 i d) = ((x.out i d : ℝ) : EReal) := by
  rw [val_main_v30_apply]
  show _ = ((∑ j, x.weight i j / x.denom i * x.Vp j d : ℝ) : EReal)
  rw [LibFinite.coe_finset_sum]
  refine Finset.sum_congr rfl fun j _ => ?_
  rw [EReal.coe_mul, ← v29_at H i j, ← v14_at x a2 a7 a8 H.v H.Wv H.bv j d]
  congr 2 <;> exact (funext fun d => Fin.ext (by match d with | ⟨0, _⟩ => rfl | ⟨1, _⟩ => rfl))

/-- The reference's last stage is the attention output, as arrays. -/
theorem val_eq (H : Args x a0 a1 a2 a3 a4 a5 a6 a7 a8) :
    val_main_v30 (F := Ideal) a0 a1 a2 a3 a4 a5 a6 a7 a8 = fun i => ((x.out (i 0) (i 1) : ℝ) : EReal) := by
  funext i
  rw [eq_ix2 i]
  exact v30_at H (i 0) (i 1)

/-- The same from the nine entrywise hypotheses, one per argument array. -/
theorem ref_eq (x : Attn.Inputs) (a0 : (⟨S4096x128, .f32⟩ : BufTy).Contents (Elt Ideal)) (a1 : (⟨S8192x128, .f32⟩ : BufTy).Contents (Elt Ideal)) (a2 : (⟨S8192x64, .f32⟩ : BufTy).Contents (Elt Ideal)) (a3 : (⟨S64x128, .f32⟩ : BufTy).Contents (Elt Ideal)) (a4 : (⟨S64, .f32⟩ : BufTy).Contents (Elt Ideal)) (a5 : (⟨S64x128, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal))
    (h0 : ∀ i c, a0 (ix2 i c) = ((x.q i c : ℝ) : EReal)) (h1 : ∀ j c, a1 (ix2 j c) = ((x.k j c : ℝ) : EReal))
    (h2 : ∀ j c, a2 (ix2 j c) = ((x.v j c : ℝ) : EReal)) (h3 : ∀ a c, a3 (ix2 a c) = ((x.Wq a c : ℝ) : EReal))
    (h4 : ∀ a, a4 (ix1 a) = ((x.bq a : ℝ) : EReal)) (h5 : ∀ a c, a5 (ix2 a c) = ((x.Wk a c : ℝ) : EReal))
    (h6 : ∀ a, a6 (ix1 a) = ((x.bk a : ℝ) : EReal)) (h7 : ∀ d c, a7 (ix2 d c) = ((x.Wv d c : ℝ) : EReal))
    (h8 : ∀ d, a8 (ix1 d) = ((x.bv d : ℝ) : EReal)) :
    val_main_v30 (F := Ideal) a0 a1 a2 a3 a4 a5 a6 a7 a8 = fun i => ((x.out (i 0) (i 1) : ℝ) : EReal) :=
  val_eq ⟨h0, h1, h2, h3, h4, h5, h6, h7, h8⟩

/-- The same from array equations: each argument array IS the coercion of the real array. -/
theorem ref_eq_of_eq (x : Attn.Inputs) (a0 : (⟨S4096x128, .f32⟩ : BufTy).Contents (Elt Ideal)) (a1 : (⟨S8192x128, .f32⟩ : BufTy).Contents (Elt Ideal)) (a2 : (⟨S8192x64, .f32⟩ : BufTy).Contents (Elt Ideal)) (a3 : (⟨S64x128, .f32⟩ : BufTy).Contents (Elt Ideal)) (a4 : (⟨S64, .f32⟩ : BufTy).Contents (Elt Ideal)) (a5 : (⟨S64x128, .f32⟩ : BufTy).Contents (Elt Ideal)) (a6 : (⟨S64, .f32⟩ : BufTy).Contents (Elt Ideal)) (a7 : (⟨S64x64, .f32⟩ : BufTy).Contents (Elt Ideal)) (a8 : (⟨S64, .f32⟩ : BufTy).Contents (Elt Ideal))
    (h0 : a0 = fun i => ((x.q (i 0) (i 1) : ℝ) : EReal)) (h1 : a1 = fun i => ((x.k (i 0) (i 1) : ℝ) : EReal))
    (h2 : a2 = fun i => ((x.v (i 0) (i 1) : ℝ) : EReal)) (h3 : a3 = fun i => ((x.Wq (i 0) (i 1) : ℝ) : EReal))
    (h4 : a4 = fun i => ((x.bq (i 0) : ℝ) : EReal)) (h5 : a5 = fun i => ((x.Wk (i 0) (i 1) : ℝ) : EReal))
    (h6 : a6 = fun i => ((x.bk (i 0) : ℝ) : EReal)) (h7 : a7 = fun i => ((x.Wv (i 0) (i 1) : ℝ) : EReal))
    (h8 : a8 = fun i => ((x.bv (i 0) : ℝ) : EReal)) :
    val_main_v30 (F := Ideal) a0 a1 a2 a3 a4 a5 a6 a7 a8 = fun i => ((x.out (i 0) (i 1) : ℝ) : EReal) := by
  subst h0 h1 h2 h3 h4 h5 h6 h7 h8
  exact val_eq ⟨fun _ _ => rfl, fun _ _ => rfl, fun _ _ => rfl, fun _ _ => rfl, fun _ => rfl, fun _ _ => rfl,
    fun _ => rfl, fun _ _ => rfl, fun _ => rfl⟩

/-- The term the reference's run leaves in its result buffer is the attention output, when the memory's nine
    argument buffers hold the coercions of the real arrays. -/
theorem res_eq (x : Attn.Inputs) (m : (ℓ : Loc nD τ sig) → Buf (Elt Ideal) ℓ) (c : Dev nD)
    (H : Args x (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8))) :
    Cert.ReferenceIdeal.Value.res_main_v30 (F := Ideal) m c = fun i => ((x.out (i 0) (i 1) : ℝ) : EReal) :=
  (val_main_v30_eq (F := Ideal) m c).trans (val_eq H)

end Cert.ReferenceIdeal.RefValue

end
-- ==== Proof.lean ====
/- The five conjuncts of the claim for a tiled attention kernel with a running softmax against the plain
   softmax-attention reference.

   The three frames are the generated frame runs, and the idealization rewrote nothing, so that conjunct is `True`.
   For the value conjunct: the precondition makes every input entry a real number; over real inputs the kernel's result
   array ends holding the attention output of the specification (the state of the running softmax after every grid
   point, by induction on the point, then the output blocks tile the array), and the reference's composed term is the
   same function of the same reals (stage by stage: projections, scores divided by 8, the row maximum, the shifted
   exponentials, their sum, the weighted average).  Both results are the coercion of one real array. -/
import proofs.«153045_j22763326669315_2_alg».proof.Defs
import proofs.«153045_j22763326669315_2_alg».proof.Proof.Gen.Kernel
import proofs.«153045_j22763326669315_2_alg».proof.Proof.Gen.Kernel.Skeleton
import proofs.«153045_j22763326669315_2_alg».proof.Proof.Gen.Kernel.Launch
import proofs.«153045_j22763326669315_2_alg».proof.Proof.Gen.Kernel.Points
import proofs.«153045_j22763326669315_2_alg».proof.Proof.Gen.Kernel.Frame
import proofs.«153045_j22763326669315_2_alg».proof.Proof.Gen.KernelIdeal
import proofs.«153045_j22763326669315_2_alg».proof.Proof.Gen.KernelIdeal.Skeleton
import proofs.«153045_j22763326669315_2_alg».proof.Proof.Gen.KernelIdeal.Launch
import proofs.«153045_j22763326669315_2_alg».proof.Proof.Gen.KernelIdeal.Points
import proofs.«153045_j22763326669315_2_alg».proof.Proof.Gen.KernelIdeal.Frame
import proofs.«153045_j22763326669315_2_alg».proof.Proof.Gen.KernelIdeal.Value
import proofs.«153045_j22763326669315_2_alg».proof.Proof.Gen.ReferenceIdeal
import proofs.«153045_j22763326669315_2_alg».proof.Proof.Gen.ReferenceIdeal.Run
import proofs.«153045_j22763326669315_2_alg».proof.Proof.Gen.ReferenceIdeal.Read
import proofs.«153045_j22763326669315_2_alg».proof.Proof.Gen.Pre_finite_inputs
import proofs.«153045_j22763326669315_2_alg».proof.Proof.Finite
import proofs.«153045_j22763326669315_2_alg».proof.Proof.Invariant
import proofs.«153045_j22763326669315_2_alg».proof.Proof.Final
import proofs.«153045_j22763326669315_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the attention output of the real inputs the precondition provides. -/
theorem algebraic : Cert.algebraic_KernelIdeal_ReferenceIdeal := by
  intro m ρ m' ρ' hpre hagree
  choose x hx using fun c => Cert.Finite.inputs_of_pre m hpre c
  refine ⟨fun c i => (((x c).out (i 0) (i 1) : ℝ) : EReal), ?_, ?_⟩
  · exact Cert.KernelIdeal.Final.run m ρ x (fun c t h7 hq => by
      obtain ⟨e0, e1, e2, e3, e4, e5, e6, e7, e8⟩ := hx c
      exact Cert.KernelIdeal.Invariant.out_at (x c) m c e0 e1 e2 e3 e4 e5 e6 e7 e8 t h7)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    obtain ⟨e0, e1, e2, e3, e4, e5, e6, e7, e8⟩ := hx c
    exact Cert.ReferenceIdeal.RefValue.res_eq (x c) m' c
      ⟨fun i j => by rw [a0, e0]; rfl, fun i j => by rw [a1, e1]; rfl, fun i j => by rw [a2, e2]; rfl,
        fun i j => by rw [a3, e3]; rfl, fun i => by rw [a4, e4]; rfl, fun i j => by rw [a5, e5]; rfl,
        fun i => by rw [a6, e6]; rfl, fun i j => by rw [a7, e7]; rfl, fun i => by rw [a8, e8]; rfl⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
